-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2047x2048 : Shape := ⟨2, ![2047, 2048]⟩
abbrev S2047 : Shape := ⟨1, ![2047]⟩
abbrev S2048x2047 : Shape := ⟨2, ![2048, 2047]⟩
abbrev S8x2048 : Shape := ⟨2, ![8, 2048]⟩
abbrev S8 : Shape := ⟨1, ![8]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2047x2048 : S_.BroadcastsInDim S2047x2048 (![] : Fin 0 → Fin S2047x2048.rank)
  reducesTo_S2047x2048_S_d0_1 : S2047x2048.ReducesTo [0, 1] S_
  bcast_S_S2047 : S_.BroadcastsInDim S2047 (![] : Fin 0 → Fin S2047.rank)
  reducesTo_S2047_S_d0 : S2047.ReducesTo [0] S_
  bcast_S_S8x2048 : S_.BroadcastsInDim S8x2048 (![] : Fin 0 → Fin S8x2048.rank)
  reducesTo_S8x2048_S_d0_1 : S8x2048.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8192x2048 .f32) (main_arg1 : FVec F S2047x2048 .f32) (main_arg2 : FVec F S2047 .f32) (main_arg3 : IVec S2048x2047 32) (main_arg4 : FVec F S8x2048 .f32) (main_arg5 : FVec F S8 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2047x2048 .f32 := Host.absf main_arg1
  let main_cst_0 : FVec F S_ .f32 := constant S_ .f32 0x7F800000#32
  let main_v5 : FVec F S2047x2048 .f32 := broadcastInDim S2047x2048 ![] bcast_S_S2047x2048 main_cst_0
  let main_v6 : IVec S2047x2048 1 := cmpf .olt main_v4 main_v5
  let main_c_1 : IVec S_ 1 := constantI S_ 1 1#1
  let main_v7 : IVec S_ 1 := (fun x v => Host.reduce IntOp.andi x v reducesTo_S2047x2048_S_d0_1 h_S_) main_v6 main_c_1
  let main_v8 : IVec S_ 1 := andi main_v3 main_v7
  let main_v9 : FVec F S2047 .f32 := Host.absf main_arg2
  let main_cst_2 : FVec F S_ .f32 := constant S_ .f32 0x7F800000#32
  let main_v10 : FVec F S2047 .f32 := broadcastInDim S2047 ![] bcast_S_S2047 main_cst_2
  let main_v11 : IVec S2047 1 := cmpf .olt main_v9 main_v10
  let main_c_3 : IVec S_ 1 := constantI S_ 1 1#1
  let main_v12 : IVec S_ 1 := (fun x v => Host.reduce IntOp.andi x v reducesTo_S2047_S_d0 h_S_) main_v11 main_c_3
  let main_v13 : IVec S_ 1 := andi main_v8 main_v12
  let main_v14 : FVec F S8x2048 .f32 := Host.absf main_arg4
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg5 main_v13 main_v16
-- ==== Kernel.lean ====
abbrev S8192x2048 : Shape := ⟨2, ![8192, 2048]⟩
abbrev S2047x2048 : Shape := ⟨2, ![2047, 2048]⟩
abbrev S2047 : Shape := ⟨1, ![2047]⟩
abbrev S2048x2047 : Shape := ⟨2, ![2048, 2047]⟩
abbrev S8x2048 : Shape := ⟨2, ![8, 2048]⟩
abbrev S8 : Shape := ⟨1, ![8]⟩
abbrev S_ : Shape := ⟨0, ![]⟩
abbrev S2048x2048 : Shape := ⟨2, ![2048, 2048]⟩
abbrev S2048 : Shape := ⟨1, ![2048]⟩
abbrev S4096x2048 : Shape := ⟨2, ![4096, 2048]⟩
abbrev S2048x8 : Shape := ⟨2, ![2048, 8]⟩
abbrev S1x2048 : Shape := ⟨2, ![1, 2048]⟩
abbrev S1x8 : Shape := ⟨2, ![1, 8]⟩
abbrev S8192x8 : Shape := ⟨2, ![8192, 8]⟩
abbrev S256x2048 : Shape := ⟨2, ![256, 2048]⟩
abbrev S256x8 : Shape := ⟨2, ![256, 8]⟩
abbrev S256x4096 : Shape := ⟨2, ![256, 4096]⟩

abbrev nBuf : Space → Nat
  | .hbm => 33
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2047x2048, .f32⟩
  | .hbm, ⟨2, _⟩ => ⟨S2047, .f32⟩
  | .hbm, ⟨3, _⟩ => ⟨S2048x2047, .i32⟩
  | .hbm, ⟨4, _⟩ => ⟨S8x2048, .f32⟩
  | .hbm, ⟨5, _⟩ => ⟨S8, .f32⟩
  | .hbm, ⟨6, _⟩ => ⟨S_, .i32⟩
  | .hbm, ⟨7, _⟩ => ⟨S_, .f32⟩
  | .hbm, ⟨8, _⟩ => ⟨S2048x2048, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S_, .i32⟩
  | .hbm, ⟨13, _⟩ => ⟨S_, .i32⟩
  | .hbm, ⟨14, _⟩ => ⟨S2048x2048, .i32⟩
  | .hbm, ⟨15, _⟩ => ⟨S2048x2048, .f32⟩
  | .hbm, ⟨16, _⟩ => ⟨S2048x2048, .bf16⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S2048x2048, .bf16⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S4096x2048, .bf16⟩
  | .hbm, ⟨28, _⟩ => ⟨S2048x8, .f32⟩
  | .hbm, ⟨29, _⟩ => ⟨S2048x8, .bf16⟩
  | .hbm, ⟨30, _⟩ => ⟨S1x2048, .f32⟩
  | .hbm, ⟨31, _⟩ => ⟨S1x8, .f32⟩
  | .hbm, ⟨32, _⟩ => ⟨S8192x8, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S4096x2048, .bf16⟩
  | .local _ .vmem, ⟨5, _⟩ => ⟨S2048x8, .bf16⟩
  | .local _ .vmem, ⟨6, _⟩ => ⟨S1x8, .f32⟩
  | .local _ .vmem, ⟨7, _⟩ => ⟨S256x8, .f32⟩
  | .local _ .vmem, ⟨8, _⟩ => ⟨S256x8, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S2047x2048_S2048x2048_010_000 : S2047x2048.Pads (![0, 0] : Fin 2 → Nat) ![1, 0] ![0, 0] S2048x2048
  h_S_ : 0 < S_.numel
  pads_S2047_S2048_010 : S2047.Pads (![0] : Fin 1 → Nat) ![1] ![0] S2048
  pads_S2048x2047_S2048x2048_000_010 : S2048x2047.Pads (![0, 0] : Fin 2 → Nat) ![0, 1] ![0, 0] S2048x2048
  transposes_S2048x2048_S2048x2048_1_0 : S2048x2048.Transposes [1, 0] S2048x2048
  bitsLt_bf16_f32 : FTy.bits .bf16 < FTy.bits .f32
  bcast_S_S2048x2048 : S_.BroadcastsInDim S2048x2048 (![] : Fin 0 → Fin S2048x2048.rank)
  concatenates_S2048x2048_S2048x2048_S4096x2048_d0 : Shape.Concatenates [S2048x2048, S2048x2048] S4096x2048 0
  transposes_S8x2048_S2048x8_1_0 : S8x2048.Transposes [1, 0] S2048x8
  shapeCasts_S2048_S1x2048 : S2048.ShapeCasts S1x2048
  shapeCasts_S8_S1x8 : S8.ShapeCasts S1x8
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  concatenates_S256x2048_S256x2048_S256x4096_d1 : Shape.Concatenates [S256x2048, S256x2048] S256x4096 1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  dot_S256x2048_S2048x2048_S256x2048_1_0_0_1_n_n_wf : DotDims.WF S256x2048 S2048x2048 S256x2048 [1] [0] [0] [1] [] []
  dot_S256x4096_S4096x2048_S256x2048_1_0_0_1_n_n_wf : DotDims.WF S256x4096 S4096x2048 S256x2048 [1] [0] [0] [1] [] []
  dot_S256x2048_S2048x8_S256x8_1_0_0_1_n_n_wf : DotDims.WF S256x2048 S2048x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S2048x8.size a
  hwx0_4 : ∀ i : grid0.Coords, EltTy.bits .bf16 = 32 ∨ (Rect.block (s := S2048x8) S2048x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S8192x8.size a
  hwx0_6 : ∀ i : grid0.Coords, EltTy.bits .f32 = 32 ∨ (Rect.block (s := S8192x8) S256x8.size (cc0_transform_6 i) (hinb0_6 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def dot_S256x2048_S2048x8_S256x8_1_0_0_1_n_n : DotDims S256x2048 S2048x8 S256x8 where
  lhsContracting := [1]
  rhsContracting := [0]
  lhsNonContracting := [0]
  rhsNonContracting := [1]
  lhsBatch := []
  rhsBatch := []
  wf := dot_S256x2048_S2048x8_S256x8_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S256x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2047x2048 : Shape := ⟨2, ![2047, 2048]⟩
abbrev S2047 : Shape := ⟨1, ![2047]⟩
abbrev S2048x2047 : Shape := ⟨2, ![2048, 2047]⟩
abbrev S8x2048 : Shape := ⟨2, ![8, 2048]⟩
abbrev S8 : Shape := ⟨1, ![8]⟩
abbrev S8192x2047 : Shape := ⟨2, ![8192, 2047]⟩
abbrev S1x2047 : Shape := ⟨2, ![1, 2047]⟩
abbrev S_ : Shape := ⟨0, ![]⟩
abbrev S2048x8 : Shape := ⟨2, ![2048, 8]⟩
abbrev S8192x8 : Shape := ⟨2, ![8192, 8]⟩
abbrev S1x8 : Shape := ⟨2, ![1, 8]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2047x2048, .f32⟩
  | .hbm, ⟨2, _⟩ => ⟨S2047, .f32⟩
  | .hbm, ⟨3, _⟩ => ⟨S2048x2047, .i32⟩
  | .hbm, ⟨4, _⟩ => ⟨S8x2048, .f32⟩
  | .hbm, ⟨5, _⟩ => ⟨S8, .f32⟩
  | .hbm, ⟨6, _⟩ => ⟨S2048x2047, .f32⟩
  | .hbm, ⟨7, _⟩ => ⟨S8192x2047, .f32⟩
  | .hbm, ⟨8, _⟩ => ⟨S1x2047, .f32⟩
  | .hbm, ⟨9, _⟩ => ⟨S8192x2047, .f32⟩
  | .hbm, ⟨10, _⟩ => ⟨S8192x2047, .f32⟩
  | .hbm, ⟨11, _⟩ => ⟨S_, .f32⟩
  | .hbm, ⟨12, _⟩ => ⟨S8192x2047, .f32⟩
  | .hbm, ⟨13, _⟩ => ⟨S8192x2047, .f32⟩
  | .hbm, ⟨14, _⟩ => ⟨S_, .i32⟩
  | .hbm, ⟨15, _⟩ => ⟨S2048x2047, .i32⟩
  | .hbm, ⟨16, _⟩ => ⟨S2048x2047, .i1⟩
  | .hbm, ⟨17, _⟩ => ⟨S2048x2047, .f32⟩
  | .hbm, ⟨18, _⟩ => ⟨S_, .i32⟩
  | .hbm, ⟨19, _⟩ => ⟨S2048x2047, .i32⟩
  | .hbm, ⟨20, _⟩ => ⟨S2048x2047, .i1⟩
  | .hbm, ⟨21, _⟩ => ⟨S2048x2047, .f32⟩
  | .hbm, ⟨22, _⟩ => ⟨S8192x2047, .f32⟩
  | .hbm, ⟨23, _⟩ => ⟨S8192x2047, .f32⟩
  | .hbm, ⟨24, _⟩ => ⟨S_, .f32⟩
  | .hbm, ⟨25, _⟩ => ⟨S8192x2047, .f32⟩
  | .hbm, ⟨26, _⟩ => ⟨S8192x2047, .f32⟩
  | .hbm, ⟨27, _⟩ => ⟨S8192x2047, .f32⟩
  | .hbm, ⟨28, _⟩ => ⟨S8192x2047, .f32⟩
  | .hbm, ⟨29, _⟩ => ⟨S8192x2047, .i1⟩
  | .hbm, ⟨30, _⟩ => ⟨S8192x2047, .f32⟩
  | .hbm, ⟨31, _⟩ => ⟨S8192x2047, .f32⟩
  | .hbm, ⟨32, _⟩ => ⟨S8192x2047, .f32⟩
  | .hbm, ⟨33, _⟩ => ⟨S8192x2047, .f32⟩
  | .hbm, ⟨34, _⟩ => ⟨S8192x2047, .f32⟩
  | .hbm, ⟨35, _⟩ => ⟨S8192x2047, .f32⟩
  | .hbm, ⟨36, _⟩ => ⟨S8192x2047, .f32⟩
  | .hbm, ⟨37, _⟩ => ⟨S8192x2047, .f32⟩
  | .hbm, ⟨38, _⟩ => ⟨S8192x2047, .f32⟩
  | .hbm, ⟨39, _⟩ => ⟨S8192x2048, .f32⟩
  | .hbm, ⟨40, _⟩ => ⟨S8192x2047, .f32⟩
  | .hbm, ⟨41, _⟩ => ⟨S_, .f32⟩
  | .hbm, ⟨42, _⟩ => ⟨S8192x2047, .f32⟩
  | .hbm, ⟨43, _⟩ => ⟨S8192x2047, .f32⟩
  | .hbm, ⟨44, _⟩ => ⟨S8192x2047, .f32⟩
  | .hbm, ⟨45, _⟩ => ⟨S8192x2047, .f32⟩
  | .hbm, ⟨46, _⟩ => ⟨S8192x2047, .i1⟩
  | .hbm, ⟨47, _⟩ => ⟨S8192x2047, .f32⟩
  | .hbm, ⟨48, _⟩ => ⟨S8192x2047, .f32⟩
  | .hbm, ⟨49, _⟩ => ⟨S8192x2047, .f32⟩
  | .hbm, ⟨50, _⟩ => ⟨S8192x2047, .f32⟩
  | .hbm, ⟨51, _⟩ => ⟨S8192x2047, .f32⟩
  | .hbm, ⟨52, _⟩ => ⟨S8192x2047, .f32⟩
  | .hbm, ⟨53, _⟩ => ⟨S8192x2047, .f32⟩
  | .hbm, ⟨54, _⟩ => ⟨S8192x2047, .f32⟩
  | .hbm, ⟨55, _⟩ => ⟨S8192x2047, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S2048x8, .f32⟩
  | .hbm, ⟨60, _⟩ => ⟨S8192x8, .f32⟩
  | .hbm, ⟨61, _⟩ => ⟨S1x8, .f32⟩
  | .hbm, ⟨62, _⟩ => ⟨S8192x8, .f32⟩
  | .hbm, ⟨63, _⟩ => ⟨S8192x8, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v14 : Ref sig .tc := ⟨.hbm, 38, rfl⟩
abbrev main_v15 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩

abbrev nD : Nat := 1
abbrev τ : Topo := Topo.v7x

variable {F : FTy → Type} [FloatOps F]

class Facts₀ : Prop where
  transposes_S2047x2048_S2048x2047_1_0 : S2047x2048.Transposes [1, 0] S2048x2047
  bcast_S2047_S1x2047_1 : S2047.BroadcastsInDim S1x2047 (![1] : Fin 1 → Fin S1x2047.rank)
  bcast_S1x2047_S8192x2047_0_1 : S1x2047.BroadcastsInDim S8192x2047 (![0, 1] : Fin 2 → Fin S8192x2047.rank)
  bcast_S_S8192x2047 : S_.BroadcastsInDim S8192x2047 (![] : Fin 0 → Fin S8192x2047.rank)
  bcast_S_S2048x2047 : S_.BroadcastsInDim S2048x2047 (![] : Fin 0 → Fin S2048x2047.rank)
  transposes_S8x2048_S2048x8_1_0 : S8x2048.Transposes [1, 0] S2048x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S8192x2048_S2048x2047_S8192x2047_1_0_0_1_n_n_wf : DotDims.WF S8192x2048 S2048x2047 S8192x2047 [1] [0] [0] [1] [] []
  dot_S8192x2047_S2048x2047_S8192x2048_1_1_0_0_n_n_wf : DotDims.WF S8192x2047 S2048x2047 S8192x2048 [1] [1] [0] [0] [] []
  dot_S8192x2048_S2048x8_S8192x8_1_0_0_1_n_n_wf : DotDims.WF S8192x2048 S2048x8 S8192x8 [1] [0] [0] [1] [] []

variable [Facts₀]

def dot_S8192x2048_S2048x2047_S8192x2047_1_0_0_1_n_n : DotDims S8192x2048 S2048x2047 S8192x2047 where
  lhsContracting := [1]
  rhsContracting := [0]
  lhsNonContracting := [0]
  rhsNonContracting := [1]
  lhsBatch := []
  rhsBatch := []
  wf := dot_S8192x2048_S2048x2047_S8192x2047_1_0_0_1_n_n_wf
def dot_S8192x2047_S2048x2047_S8192x2048_1_1_0_0_n_n : DotDims S8192x2047 S2048x2047 S8192x2048 where
  lhsContracting := [1]
  rhsContracting := [1]
  lhsNonContracting := [0]
  rhsNonContracting := [0]
  lhsBatch := []
  rhsBatch := []
  wf := dot_S8192x2047_S2048x2047_S8192x2048_1_1_0_0_n_n_wf
def dot_S8192x2048_S2048x8_S8192x8_1_0_0_1_n_n : DotDims S8192x2048 S2048x8 S8192x8 where
  lhsContracting := [1]
  rhsContracting := [0]
  lhsNonContracting := [0]
  rhsNonContracting := [1]
  lhsBatch := []
  rhsBatch := []
  wf := dot_S8192x2048_S2048x8_S8192x8_1_0_0_1_n_n_wf

class Facts : Prop extends Facts₀ where

variable [Facts]
-- ==== Proof.Spec.lean ====
/-
  The function both programs compute, entry by entry, over the extended reals.

  The network is a linear layer scaled by ten, a gate in the log domain, and a second linear layer:

    z[b, n]      = 10 · (∑_d inp[b, d] · W1[n, d] + b1[n])                         (b < 8192, n < 2047)
    logσ(x)      = −softplus(−x),     softplus(y) = max(y, 0) + log(1 + e^{−|y|})
    ℓ[b, m]      = ∑_n logσ(−z[b, n]) · [tree[m, n] = 1] + ∑_n logσ(z[b, n]) · [tree[m, n] = −1]     (m < 2048)
    out[b, c]    = ∑_m e^{ℓ[b, m]} · W2[c, m] + b2[c]                               (c < 8)

  The bracket [tree[m, n] = v] is the comparison's one-bit answer read as the number 0 or 1. Every operation is the
  extended reals' own (sums, products, max, exp and log with their values at the infinities); nothing here assumes
  the inputs finite.
-/
import Idealize.ShloMosaic.PureOps.Ideal
import Idealize.ShloMosaic.Lib.ValueIdx

noncomputable section

open scoped BigOperators

namespace Cert.LogTree

open Idealize.ShloMosaic Idealize.ShloMosaic.ValueIdx

/-- The shapes of the six arguments and of the result. -/
abbrev SInp : Shape := ⟨2, ![8192, 2048]⟩
abbrev SW1 : Shape := ⟨2, ![2047, 2048]⟩
abbrev SB1 : Shape := ⟨1, ![2047]⟩
abbrev STree : Shape := ⟨2, ![2048, 2047]⟩
abbrev SW2 : Shape := ⟨2, ![8, 2048]⟩
abbrev SB2 : Shape := ⟨1, ![8]⟩
abbrev SOut : Shape := ⟨2, ![8192, 8]⟩

/-- The scale of the first layer: the number the single-precision pattern of 10.0 denotes. -/
def ten : EReal := Ideal.ofBits .f32 0x41200000#32

/-- The scaled first layer, z[b, n] = 10 · (∑_d inp[b, d] · W1[n, d] + b1[n]). -/
def preact (inp : SInp.Idx → EReal) (W1 : SW1.Idx → EReal) (b1 : SB1.Idx → EReal) (b : Fin 8192) (n : Fin 2047) : EReal :=
  ten * ((∑ d : Fin 2048, inp (ix2 b d) * W1 (ix2 n d)) + b1 (ix1 n))

/-- softplus(y) = max(y, 0) + log(1 + e^{−|y|}), with |y| = max(y, −y). -/
def softplus (y : EReal) : EReal := max y 0 + Ideal.log1p (Ideal.exp (-(max y (-y))))

/-- logσ(x) = −softplus(−x). -/
def logSigmoid (x : EReal) : EReal := -(softplus (-x))

/-- [entry = want] as the number 0 or 1: the comparison's bit, read unsigned. -/
def gate (want entry : BitVec 32) : EReal := (((IntOp.cmpi .eq entry want).toNat : ℝ) : EReal)

/-- The log of the masked product: ℓ[b, m] = ∑_n logσ(−z[b, n]) · [tree[m, n] = 1] + ∑_n logσ(z[b, n]) · [tree[m, n] = −1]. -/
def logProd (inp : SInp.Idx → EReal) (W1 : SW1.Idx → EReal) (b1 : SB1.Idx → EReal) (tree : STree.Idx → BitVec 32)
    (b : Fin 8192) (mm : Fin 2048) : EReal :=
  (∑ n : Fin 2047, logSigmoid (-(preact inp W1 b1 b n)) * gate 1#32 (tree (ix2 mm n)))
    + ∑ n : Fin 2047, logSigmoid (preact inp W1 b1 b n) * gate 4294967295#32 (tree (ix2 mm n))

/-- One entry of the result: out[b, c] = ∑_m e^{ℓ[b, m]} · W2[c, m] + b2[c]. -/
def out (inp : SInp.Idx → EReal) (W1 : SW1.Idx → EReal) (b1 : SB1.Idx → EReal) (tree : STree.Idx → BitVec 32)
    (W2 : SW2.Idx → EReal) (b2 : SB2.Idx → EReal) (b : Fin 8192) (c : Fin 8) : EReal :=
  (∑ mm : Fin 2048, Ideal.exp (logProd inp W1 b1 tree b mm) * W2 (ix2 c mm)) + b2 (ix1 c)

/-- The whole result array as one function of the six argument arrays. -/
def G (inp : SInp.Idx → EReal) (W1 : SW1.Idx → EReal) (b1 : SB1.Idx → EReal) (tree : STree.Idx → BitVec 32)
    (W2 : SW2.Idx → EReal) (b2 : SB2.Idx → EReal) : SOut.Idx → EReal :=
  fun i => out inp W1 b1 tree W2 b2 (i 0) (i 1)

theorem G_apply (inp : SInp.Idx → EReal) (W1 : SW1.Idx → EReal) (b1 : SB1.Idx → EReal) (tree : STree.Idx → BitVec 32)
    (W2 : SW2.Idx → EReal) (b2 : SB2.Idx → EReal) (b : Fin 8192) (c : Fin 8) :
    G inp W1 b1 tree W2 b2 (ix2 b c) = out inp W1 b1 tree W2 b2 b c := rfl

end Cert.LogTree

end
-- ==== Proof.LibRealArrays.lean ====
/-
  Real-valued arrays of extended reals.

  An array `v : ι → EReal` is REAL-VALUED when every entry is (the image of) a real number: no entry is +∞ or -∞.
  On such arrays the extended reals behave as the reals do — in particular `x - x = 0` and products distribute over
  sums —, which is what the laws joining two arrangements of one computation need.  This file only fixes the
  predicate and its two most basic facts; the closure properties live beside the operations they speak of.
-/
import Mathlib.Data.EReal.Basic

namespace Cert.RealArrays

/-- Every entry of `v` is a real number. -/
def IsReal {ι : Type*} (v : ι → EReal) : Prop := ∃ f : ι → ℝ, ∀ i, v i = ((f i : ℝ) : EReal)

/-- A real-valued array read through any re-indexing is real-valued. -/
theorem IsReal.comp {ι κ : Type*} {v : ι → EReal} (hv : IsReal v) (g : κ → ι) : IsReal (fun j => v (g j)) := by
  obtain ⟨f, hf⟩ := hv
  exact ⟨fun j => f (g j), fun j => hf (g j)⟩

/-- An array given by real numbers is real-valued. -/
theorem isReal_coe {ι : Type*} (f : ι → ℝ) : IsReal (fun i => ((f i : ℝ) : EReal)) := ⟨f, fun _ => rfl⟩

/-- An entry of a real-valued array is not +∞. -/
theorem IsReal.ne_top {ι : Type*} {v : ι → EReal} (hv : IsReal v) (i : ι) : v i ≠ ⊤ := by
  obtain ⟨f, hf⟩ := hv; rw [hf i]; exact EReal.coe_ne_top _

/-- An entry of a real-valued array is not -∞. -/
theorem IsReal.ne_bot {ι : Type*} {v : ι → EReal} (hv : IsReal v) (i : ι) : v i ≠ ⊥ := by
  obtain ⟨f, hf⟩ := hv; rw [hf i]; exact EReal.coe_ne_bot _

end Cert.RealArrays
-- ==== Proof.Algebra.lean ====
/-
  The law that joins the two arrangements of the log-domain gate.

  One program computes logσ(z) directly; the other computes logσ(−z) once and obtains logσ(z) as z + logσ(−z). For a
  REAL z the two agree: with softplus(y) = max(y, 0) + log(1 + e^{−|y|}) and logσ(x) = −softplus(−x),

      z + logσ(−z) = z − max(z, 0) − log(1 + e^{−|z|}) = −max(−z, 0) − log(1 + e^{−|−z|}) = logσ(z),

  because z − max(z, 0) = −max(−z, 0) and |z| = |−z|. (At z = +∞ the left side is +∞ − ∞, so the law needs z finite;
  z is a finite sum of products of the finite inputs.) The other program also sums over one more feature, a padded one
  whose mask weights are both 0, so that term vanishes whatever the activation there is.
-/
import proofs.«175677_j39694087750206_2_alg».proof.Proof.Spec
import proofs.«175677_j39694087750206_2_alg».proof.Proof.LibRealArrays

noncomputable section

open scoped BigOperators

namespace Cert.LogTree

open Idealize.ShloMosaic Idealize.ShloMosaic.ValueIdx Cert.RealArrays

/-- The scale is the real number 10. -/
theorem ten_eq : ten = ((10 : ℝ) : EReal) := by
  unfold ten
  simp [Ideal.ofBits, Ideal.ieee, -EReal.coe_mul]; norm_num

/-- The image in the extended reals of a finite real sum is the sum of the images. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The image of the larger of two reals is the larger of the images. -/
theorem coe_max (a b : ℝ) : ((max a b : ℝ) : EReal) = max (a : EReal) (b : EReal) :=
  EReal.coe_strictMono.monotone.map_max

/-- With finite inputs the scaled first layer is a real number. -/
theorem preact_real {inp : SInp.Idx → EReal} {W1 : SW1.Idx → EReal} {b1 : SB1.Idx → EReal}
    (hinp : IsReal inp) (hW1 : IsReal W1) (hb1 : IsReal b1) (b : Fin 8192) (n : Fin 2047) :
    ∃ r : ℝ, preact inp W1 b1 b n = (r : EReal) := by
  obtain ⟨fi, hfi⟩ := hinp
  obtain ⟨fw, hfw⟩ := hW1
  obtain ⟨fb, hfb⟩ := hb1
  refine ⟨10 * ((∑ d : Fin 2048, fi (ix2 b d) * fw (ix2 n d)) + fb (ix1 n)), ?_⟩
  unfold preact
  simp only [hfi, hfw, hfb, ten_eq, ← EReal.coe_mul, ← coe_sum, ← EReal.coe_add]

/-- softplus of a real number is the real number max(r, 0) + log(1 + e^{−|r|}). -/
theorem softplus_coe (r : ℝ) :
    softplus (r : EReal) = ((max r 0 + Real.log (1 + Real.exp (-(max r (-r)))) : ℝ) : EReal) := by
  have hpos : ¬ (1 + Real.exp (-(max r (-r))) ≤ 0) := by
    have := Real.exp_pos (-(max r (-r))); linarith
  unfold softplus Ideal.log1p
  rw [← EReal.coe_neg, ← coe_max, ← EReal.coe_neg, Ideal.exp_coe, ← EReal.coe_one, ← EReal.coe_add,
    Ideal.log_coe, if_neg hpos, ← EReal.coe_zero, ← coe_max, ← EReal.coe_add]

/-- For a real z, z + logσ(−z) = logσ(z). -/
theorem logSigmoid_shift (r : ℝ) : (r : EReal) + logSigmoid (-(r : EReal)) = logSigmoid (r : EReal) := by
  unfold logSigmoid
  rw [neg_neg, ← EReal.coe_neg, softplus_coe, softplus_coe, ← EReal.coe_neg, ← EReal.coe_neg, ← EReal.coe_add]
  refine congrArg _ ?_
  rw [neg_neg, max_comm (-r) r]
  have h : r - max r 0 = -max (-r) 0 := by
    rcases le_total 0 r with h0 | h0
    · rw [max_eq_left h0, max_eq_right (by linarith)]; ring
    · rw [max_eq_right h0, max_eq_left (by linarith)]; ring
  linarith

/-- THE JOIN. Over 2048 features, the last one padded (both mask weights 0 there), the sum of logσ(−z)·pos plus the
    sum of (z + logσ(−z))·neg is the specification's log of the masked product over the 2047 true features, when the
    inputs of the first layer are finite. -/
theorem fused_eq_logProd {inp : SInp.Idx → EReal} {W1 : SW1.Idx → EReal} {b1 : SB1.Idx → EReal}
    (hinp : IsReal inp) (hW1 : IsReal W1) (hb1 : IsReal b1) (tree : STree.Idx → BitVec 32) (b : Fin 8192) (mm : Fin 2048)
    (z pos neg : Fin 2048 → EReal)
    (hz : ∀ n : Fin 2047, z n.castSucc = preact inp W1 b1 b n)
    (hpos : ∀ n : Fin 2047, pos n.castSucc = gate 1#32 (tree (ix2 mm n))) (hposL : pos (Fin.last 2047) = 0)
    (hneg : ∀ n : Fin 2047, neg n.castSucc = gate 4294967295#32 (tree (ix2 mm n))) (hnegL : neg (Fin.last 2047) = 0) :
    (∑ n : Fin 2048, logSigmoid (-(z n)) * pos n) + (∑ n : Fin 2048, (z n + logSigmoid (-(z n))) * neg n)
      = logProd inp W1 b1 tree b mm := by
  rw [Fin.sum_univ_castSucc, Fin.sum_univ_castSucc (f := fun n => (z n + logSigmoid (-(z n))) * neg n),
    hposL, hnegL, mul_zero, mul_zero, add_zero, add_zero]
  unfold logProd
  congr 1
  · exact Finset.sum_congr rfl fun n _ => by rw [hz, hpos]
  · refine Finset.sum_congr rfl fun n _ => ?_
    obtain ⟨r, hr⟩ := preact_real hinp hW1 hb1 b n
    rw [hz, hneg, hr, logSigmoid_shift]

end Cert.LogTree

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«175677_j39694087750206_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.KernelBody.lean ====
/-
  The kernel body's result at one entry, as plain sums over the extended reals.

  On one block of 256 rows the body computes, with every operation the extended reals' own,

    z[p, n]   = 10 · (∑_d x[p, d] · w1t[d, n] + b1[n])                                   (n < 2048)
    a[p, c]   = logσ(−z[p, c])              for a column c < 2048,
    a[p, c]   = z[p, c'] + logσ(−z[p, c'])  for a column c = 2048 + c',
    ℓ[p, m]   = ∑_{c < 4096} a[p, c] · mask[c, m]
    out[p, k] = ∑_m e^{ℓ[p, m]} · w2t[m, k] + b2[k]

  where logσ(−z) is spelt 0 − select(u ≠ u, w + 0, max(w, 0) + log(1 + e^{0 − |u|})) with w = 0 − (0 − z) and u = w − 0.
  Nothing here needs the entries finite: 0 − a = −a, −(−a) = a and a − 0 = a hold for every extended real, no extended real
  differs from itself, a change of float format is the identity, and a matrix product into a zero accumulator is the
  plain sum of products. The sum over the 4096 joined columns is split into its first and last 2048 terms.
-/
import proofs.«175677_j39694087750206_2_alg».proof.Proof.Gen.KernelIdeal.Frame
import proofs.«175677_j39694087750206_2_alg».proof.Proof.Spec
import proofs.«175677_j39694087750206_2_alg».proof.Proof.LibRowsTimes
import proofs.«175677_j39694087750206_2_alg».proof.Proof.LibColumnJoin
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The scaled first layer on one block of 256 rows, all 2048 (padded) columns. -/
def zK (x0 : Vec Ideal S256x2048 .f32) (x1 : Vec Ideal S2048x2048 .bf16) (x2 : Vec Ideal S1x2048 .f32) (p : Fin 256) (n : Fin 2048) : EReal :=
  Cert.LogTree.ten * ((∑ d : Fin 2048, x0 (ix2 p d) * x1 (ix2 d n)) + x2 (ix2 0 n))

/-! ## The gate at one extended real -/

/-- The body spells log-sigmoid(−z) as 0 − select(w − 0 ≠ w − 0, w + 0, max(w, 0) + log(1 + e^{0 − |w − 0|})) with
    w = 0 − (0 − z). On the extended reals 0 − a = −a, −(−a) = a and a − 0 = a for every a, so w = z; no extended real
    differs from itself, so the select takes its second branch; and what is left is −softplus(z) = log-sigmoid(−z). -/
theorem gate_scalar (z : EReal) :
    (0 : EReal) - Scalar.select (Ideal.cmp .one (((0 : EReal) - (0 - z)) - 0) (((0 : EReal) - (0 - z)) - 0))
        (((0 : EReal) - (0 - z)) + 0)
        (max ((0 : EReal) - (0 - z)) 0 + Ideal.log1p (Ideal.exp (0 - max (((0 : EReal) - (0 - z)) - 0) (-(((0 : EReal) - (0 - z)) - 0)))))
      = Cert.LogTree.logSigmoid (-z) := by
  have hw : (0 : EReal) - (0 - z) = z := by rw [zero_sub, zero_sub, neg_neg]
  have hc : Ideal.cmp .one z z = 0#1 := by simp [Ideal.cmp]
  rw [hw, sub_zero, hc, select_zero, zero_sub, zero_sub]
  unfold Cert.LogTree.logSigmoid Cert.LogTree.softplus
  simp only [neg_neg]

/-! ## The body's vectors -/

/-- The first layer as the body computes it: the product of the block of rows with the weights into a zero accumulator,
    plus the bias row on every row, times ten. -/
def zVec (x0 : Vec Ideal S256x2048 .f32) (x1 : Vec Ideal S2048x2048 .bf16) (x2 : Vec Ideal S1x2048 .f32) : FVec Ideal S256x2048 .f32 :=
  mulf (broadcast S256x2048 (Scalar.ofBits .f32 0x41200000#32))
    (addf (matmul dot_S256x2048_S2048x2048_S256x2048_1_0_0_1_n_n none (truncf .bf16 x0 bitsLt_bf16_f32)
        (shapeCast S2048x2048 x1 shapeCasts_S2048x2048_S2048x2048 : FVec Ideal S2048x2048 .bf16) (constant S256x2048 .f32 0x00000000#32))
      (broadcastTo S256x2048 (shapeCast S1x2048 x2 shapeCasts_S1x2048_S1x2048) broadcasts_S1x2048_S256x2048))

/-- The body's log-sigmoid of minus a vector, entry by entry (the operations of `gate_scalar`). -/
def gateVec (z : FVec Ideal S256x2048 .f32) : FVec Ideal S256x2048 .f32 :=
  subf (broadcast S256x2048 (Scalar.ofBits .f32 0x00000000#32))
    (select
      (cmpf .one
        (subf (subf (broadcast S256x2048 (Scalar.ofBits .f32 0x00000000#32)) (subf (broadcast S256x2048 (Scalar.ofBits .f32 0x00000000#32)) z)) (broadcast S256x2048 (Scalar.ofBits .f32 0x00000000#32)))
        (subf (subf (broadcast S256x2048 (Scalar.ofBits .f32 0x00000000#32)) (subf (broadcast S256x2048 (Scalar.ofBits .f32 0x00000000#32)) z)) (broadcast S256x2048 (Scalar.ofBits .f32 0x00000000#32))))
      (addf (subf (broadcast S256x2048 (Scalar.ofBits .f32 0x00000000#32)) (subf (broadcast S256x2048 (Scalar.ofBits .f32 0x00000000#32)) z)) (broadcast S256x2048 (Scalar.ofBits .f32 0x00000000#32)))
      (addf
        (maximumf (subf (broadcast S256x2048 (Scalar.ofBits .f32 0x00000000#32)) (subf (broadcast S256x2048 (Scalar.ofBits .f32 0x00000000#32)) z)) (broadcast S256x2048 (Scalar.ofBits .f32 0x00000000#32)))
        (log1p (exp (subf (broadcast S256x2048 (Scalar.ofBits .f32 0x00000000#32))
          (absf (subf (subf (broadcast S256x2048 (Scalar.ofBits .f32 0x00000000#32)) (subf (broadcast S256x2048 (Scalar.ofBits .f32 0x00000000#32)) z)) (broadcast S256x2048 (Scalar.ofBits .f32 0x00000000#32)))))))))

/-- The second payload is: the two gated vectors joined along the columns, times the mask, exponentiated. -/
theorem pay2_eq (x0 : Vec Ideal S256x2048 .f32) (x1 : Vec Ideal S2048x2048 .bf16) (x2 : Vec Ideal S1x2048 .f32) (x3 : Vec Ideal S4096x2048 .bf16) :
    k0_pay2 (F := Ideal) x0 x1 x2 x3
      = truncf .bf16 (exp (matmul dot_S256x4096_S4096x2048_S256x2048_1_0_0_1_n_n none
          (concatenate S256x4096 1 [⟨S256x2048, truncf .bf16 (gateVec (zVec x0 x1 x2)) bitsLt_bf16_f32⟩,
              ⟨S256x2048, truncf .bf16 (addf (zVec x0 x1 x2) (gateVec (zVec x0 x1 x2))) bitsLt_bf16_f32⟩]
            concatenates_S256x2048_S256x2048_S256x4096_d1)
          (shapeCast S4096x2048 x3 shapeCasts_S4096x2048_S4096x2048 : FVec Ideal S4096x2048 .bf16) (constant S256x2048 .f32 0x00000000#32))) bitsLt_bf16_f32 := rfl

/-- The first layer at one entry. -/
theorem zVec_apply (x0 : Vec Ideal S256x2048 .f32) (x1 : Vec Ideal S2048x2048 .bf16) (x2 : Vec Ideal S1x2048 .f32) (p : Fin 256) (n : Fin 2048) :
    zVec x0 x1 x2 (ix2 p n) = zK x0 x1 x2 p n := by
  unfold zVec zK
  rw [mulf_apply, addf_apply, broadcast_apply, shapeCast_self, shapeCast_self, broadcastTo_1b_ab_apply]
  refine congrArg₂ (· * ·) rfl (congrArg (· + _) ?_)
  exact Idealize.ShloMosaic.RowsTimes.matmul_zero_apply dot_S256x2048_S2048x2048_S256x2048_1_0_0_1_n_n rfl rfl rfl rfl rfl rfl (by decide) (by decide) none
    (truncf .bf16 x0 bitsLt_bf16_f32 : FVec Ideal S256x2048 .bf16) (x1 : FVec Ideal S2048x2048 .bf16) p n

/-- The gate at one entry. -/
theorem gateVec_apply (z : FVec Ideal S256x2048 .f32) (i : S256x2048.Idx) :
    gateVec z i = Cert.LogTree.logSigmoid (-(z i)) := by
  have h := gate_scalar (z i)
  rw [← Ideal.ofBits_zero_f32] at h
  exact h

/-! ## The two payloads at an entry -/

/-- A change of float format is the identity and the exponential acts entry by entry. -/
theorem exp_trunc_apply (a : FVec Ideal S256x2048 .f32) (i : S256x2048.Idx) :
    (truncf .bf16 (exp a) bitsLt_bf16_f32 : FVec Ideal S256x2048 .bf16) i = Ideal.exp (a i) := rfl

/-- The second payload at (p, m): e to the masked sum, the sum over the joined columns split into its two halves. -/
theorem pay2_apply (x0 : Vec Ideal S256x2048 .f32) (x1 : Vec Ideal S2048x2048 .bf16) (x2 : Vec Ideal S1x2048 .f32) (x3 : Vec Ideal S4096x2048 .bf16)
    (p : Fin 256) (mm : Fin 2048) :
    k0_pay2 (F := Ideal) x0 x1 x2 x3 (ix2 p mm)
      = Ideal.exp (
          (∑ n : Fin 2048, Cert.LogTree.logSigmoid (-(zK x0 x1 x2 p n)) * x3 (ix2 (⟨n.val, by have := n.isLt; omega⟩ : Fin 4096) mm))
        + ∑ n : Fin 2048, (zK x0 x1 x2 p n + Cert.LogTree.logSigmoid (-(zK x0 x1 x2 p n))) * x3 (ix2 (⟨2048 + n.val, by have := n.isLt; omega⟩ : Fin 4096) mm)) := by
  rw [pay2_eq]
  refine (exp_trunc_apply _ (ix2 p mm)).trans ?_
  refine congrArg Ideal.exp ?_
  refine (Idealize.ShloMosaic.RowsTimes.matmul_zero_apply dot_S256x4096_S4096x2048_S256x2048_1_0_0_1_n_n rfl rfl rfl rfl rfl rfl
    (by decide) (by decide) none _ _ p mm).trans ?_
  refine (Idealize.ShloMosaic.ColumnJoin.sum_fin_split (N := 4096) 2048 2048 rfl _).trans ?_
  refine congrArg₂ (· + ·) (Finset.sum_congr rfl fun n _ => ?_) (Finset.sum_congr rfl fun n _ => ?_)
  · beta_reduce
    rw [shapeCast_self]
    refine congrArg (· * _) ?_
    refine (Idealize.ShloMosaic.ColumnJoin.join_cols_left (N := 4096) _ _ _ p (⟨n.val, by have := n.isLt; omega⟩ : Fin 4096) n rfl).trans ?_
    rw [truncf_apply, gateVec_apply, zVec_apply]
  · beta_reduce
    rw [shapeCast_self]
    refine congrArg (· * _) ?_
    refine (Idealize.ShloMosaic.ColumnJoin.join_cols_right (N := 4096) _ _ _ p (⟨2048 + n.val, by have := n.isLt; omega⟩ : Fin 4096) n rfl).trans ?_
    rw [truncf_apply, addf_apply, gateVec_apply, zVec_apply]

/-- The first payload at (p, k): the product of its first operand with the last weights, plus the last bias row. -/
theorem pay1_apply (a : FVec Ideal S256x2048 .bf16) (x4 : Vec Ideal S2048x8 .bf16) (x5 : Vec Ideal S1x8 .f32) (p : Fin 256) (k : Fin 8) :
    k0_pay1 (F := Ideal) a x4 x5 (ix2 p k) = (∑ mm : Fin 2048, a (ix2 p mm) * x4 (ix2 mm k)) + x5 (ix2 0 k) := by
  unfold k0_pay1
  rw [addf_apply, shapeCast_self, shapeCast_self, broadcastTo_1b_ab_apply]
  refine congrArg (· + _) ?_
  exact Idealize.ShloMosaic.RowsTimes.matmul_zero_apply dot_S256x2048_S2048x8_S256x8_1_0_0_1_n_n rfl rfl rfl rfl rfl rfl (by decide) (by decide) none
    a (x4 : FVec Ideal S2048x8 .bf16) p k

/-! ## The stored block at an entry -/

/-- The whole-block rectangle starts at the origin. -/
theorem origin2 : (![0, 0] : Fin 2 → Nat) = fun _ => 0 := funext fun a => by fin_cases a <;> rfl

/-- THE BODY'S RESULT at (p, k): the one whole-block store of the first payload, over whole-block loads. -/
theorem out_apply (x0 : Vec Ideal S256x2048 .f32) (x1 : Vec Ideal S2048x2048 .bf16) (x2 : Vec Ideal S1x2048 .f32) (x3 : Vec Ideal S4096x2048 .bf16) (x4 : Vec Ideal S2048x8 .bf16) (x5 : Vec Ideal S1x8 .f32) (p : Fin 256) (k : Fin 8) :
    Gen.out0_6 (F := Ideal) x0 x1 x2 x3 x4 x5 (ix2 p k)
      = (∑ mm : Fin 2048, Ideal.exp (
            (∑ n : Fin 2048, Cert.LogTree.logSigmoid (-(zK x0 x1 x2 p n)) * x3 (ix2 (⟨n.val, by have := n.isLt; omega⟩ : Fin 4096) mm))
          + ∑ n : Fin 2048, (zK x0 x1 x2 p n + Cert.LogTree.logSigmoid (-(zK x0 x1 x2 p n))) * x3 (ix2 (⟨2048 + n.val, by have := n.isLt; omega⟩ : Fin 4096) mm))
          * x4 (ix2 mm k))
        + x5 (ix2 0 k) := by
  unfold Gen.out0_6
  rw [View.canon_unit_zero origin2]
  simp only [View.ld_unit_zero (S := S256x2048) origin2, View.ld_unit_zero (S := S2048x2048) origin2,
    View.ld_unit_zero (S := S1x2048) origin2, View.ld_unit_zero (S := S4096x2048) origin2,
    View.ld_unit_zero (S := S2048x8) origin2, View.ld_unit_zero (S := S1x8) origin2]
  refine (pay1_apply _ x4 x5 p k).trans ?_
  refine congrArg (· + _) (Finset.sum_congr rfl fun mm _ => ?_)
  exact congrArg (· * _) (pay2_apply x0 x1 x2 x3 p mm)

end Cert.KernelIdeal.Body

end
-- ==== Proof.LibHostLine.lean ====
/-
  Two general facts about a straight line of host array operations.

  1. The buffers after a concatenated line `l₁ ++ l₂` are the buffers after `l₂` from the buffers after `l₁`: a long
     line can be cut into short parts and each part read on its own, at an arbitrary state of the buffers.
  2. The operations of a called function read and write each buffer through its tensor type: a value is carried into the
     buffer's type (`TRef.toBuf`) and back (`TRef.ofBuf`) along the equation between the two types. There and back is
     the identity, for ANY typed reference (by substituting the equation, without evaluating the buffer table), and
     either way the carried value is the value it was (as a heterogeneous equation, which becomes an equation wherever
     the two types are the same by computation).
-/
import Idealize.ShloMosaic.Lib.StableHlo.Run

namespace Cert.HostLine

open Idealize.ShloMosaic Idealize.ShloMosaic.StableHlo

/-- The fold of a concatenated line is the fold of its second part over the fold of its first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Into a buffer's type and back is the identity. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- A value carried into a buffer's type is that value. -/
theorem toBuf_heq {sig : RefSig} {T : BufTy} {Val : EltTy → Type} (x : TRef sig T) (v : T.Contents Val) : HEq (x.toBuf v) v :=
  cast_heq _ _

/-- A buffer's contents read at its tensor type are those contents. -/
theorem ofBuf_heq {sig : RefSig} {T : BufTy} {Val : EltTy → Type} (x : TRef sig T) (v : x.ref.ty.Contents Val) : HEq (x.ofBuf v) v :=
  cast_heq _ _

end Cert.HostLine
-- ==== Proof.LibHostReads.lean ====
/-
  General facts for reading, at one index, the arrays that a program's host-side preparation builds:

  * a padded array at an index inside the operand is the operand there, and at an index past the operand's extent on
    some axis is the padding value (`pad_apply_in`, `pad_apply_out`);
  * two matrices of R rows each, joined along axis 0, read at a row below R in the first and at row R + r in the second
    (`join_rows_left`, `join_rows_right`);
  * the one-bit answer of a comparison with a constant word, converted unsigned to a number;
  * the signed conversion of the zero word is the number zero.
-/
import Idealize.ShloMosaic.Lib.Pipeline.Value
import Idealize.ShloMosaic.Lib.ValueIdx
import Idealize.ShloMosaic.Lib.ValueLayout

noncomputable section

namespace Idealize.ShloMosaic.HostReads

open Idealize.ShloMosaic Idealize.ShloMosaic.ValueIdx

variable {α : Type}

/-- A padded array read at an index that is the image of operand index `k` (on every axis the low padding plus `k`'s
    coordinate times the interior step) is the operand at `k`. -/
theorem pad_apply_in {s t : Shape} (lo hi interior : Fin s.rank → Nat) (x : s.Idx → α) {u : Shape} (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a, Nat.add_sub_cancel_left]
    exact ⟨Nat.le_add_right _ _, Nat.mul_mod_left _ _, by rw [Nat.mul_div_cancel _ (Nat.succ_pos _)]; exact (k a).isLt⟩
  unfold pad
  rw [dif_pos hin]
  refine congrArg x (funext fun a => Fin.ext ?_)
  show ((j (a.cast h.1)).val - lo a) / (interior a + 1) = (k a).val
  rw [hk a, Nat.add_sub_cancel_left, Nat.mul_div_cancel _ (Nat.succ_pos _)]

/-- A padded array read at an index whose coordinate on some axis lies past the operand's last element is the padding
    value. -/
theorem pad_apply_out {s t : Shape} (lo hi interior : Fin s.rank → Nat) (x : s.Idx → α) {u : Shape} (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg (fun hin => absurd (hin a).2.2 (Nat.not_lt.2 ha))]

/-- A matrix padded by `p` rows at the high end, at a row inside the operand. -/
theorem pad_rows_in {R C R' p : Nat} (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (i : Fin R') (j : Fin C) (hi : i.val < R) :
    pad (⟨2, ![R', C]⟩ : Shape) (![0, 0] : Fin 2 → Nat) ![p, 0] ![0, 0] x v h hu (ix2 i j) = x (ix2 ⟨i.val, hi⟩ j) :=
  pad_apply_in _ _ _ x v h hu (ix2 i j) (ix2 ⟨i.val, hi⟩ j) (fun a => match a with
    | ⟨0, _⟩ => by show i.val = 0 + i.val * (0 + 1); omega
    | ⟨1, _⟩ => by show j.val = 0 + j.val * (0 + 1); omega)

/-- A matrix padded by `p` rows at the high end, at a row past the operand's. -/
theorem pad_rows_out {R C R' p : Nat} (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (i : Fin R') (j : Fin C) (hi : R ≤ i.val) :
    pad (⟨2, ![R', C]⟩ : Shape) (![0, 0] : Fin 2 → Nat) ![p, 0] ![0, 0] x v h hu (ix2 i j) = v (Shape.Idx.first hu) :=
  pad_apply_out _ _ _ x v h hu (ix2 i j) (0 : Fin 2) (by show R ≤ (i.val - 0) / (0 + 1); rw [Nat.sub_zero, Nat.div_one]; exact hi)

/-- A matrix padded by `p` columns at the high end, at a column inside the operand. -/
theorem pad_cols_in {R C C' p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, C']⟩) (hu : 0 < u.numel)
    (i : Fin R) (j : Fin C') (hj : j.val < C) :
    pad (⟨2, ![R, C']⟩ : Shape) (![0, 0] : Fin 2 → Nat) ![0, p] ![0, 0] x v h hu (ix2 i j) = x (ix2 i ⟨j.val, hj⟩) :=
  pad_apply_in _ _ _ x v h hu (ix2 i j) (ix2 i ⟨j.val, hj⟩) (fun a => match a with
    | ⟨0, _⟩ => by show i.val = 0 + i.val * (0 + 1); omega
    | ⟨1, _⟩ => by show j.val = 0 + j.val * (0 + 1); omega)

/-- A matrix padded by `p` columns at the high end, at a column past the operand's. -/
theorem pad_cols_out {R C C' p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, C']⟩) (hu : 0 < u.numel)
    (i : Fin R) (j : Fin C') (hj : C ≤ j.val) :
    pad (⟨2, ![R, C']⟩ : Shape) (![0, 0] : Fin 2 → Nat) ![0, p] ![0, 0] x v h hu (ix2 i j) = v (Shape.Idx.first hu) :=
  pad_apply_out _ _ _ x v h hu (ix2 i j) (1 : Fin 2) (by show C ≤ (j.val - 0) / (0 + 1); rw [Nat.sub_zero, Nat.div_one]; exact hj)

/-- A vector padded by `p` entries at the high end, at an entry inside the operand. -/
theorem pad_vec_in {N N' p : Nat} (x : (⟨1, ![N]⟩ : Shape).Idx → α) {u : Shape} (v : u.Idx → α)
    (h : (⟨1, ![N]⟩ : Shape).Pads (![0] : Fin 1 → Nat) ![p] ![0] ⟨1, ![N']⟩) (hu : 0 < u.numel)
    (i : Fin N') (hi : i.val < N) :
    pad (⟨1, ![N']⟩ : Shape) (![0] : Fin 1 → Nat) ![p] ![0] x v h hu (ix1 i) = x (ix1 ⟨i.val, hi⟩) :=
  pad_apply_in _ _ _ x v h hu (ix1 i) (ix1 ⟨i.val, hi⟩) (fun a => match a with
    | ⟨0, _⟩ => by show i.val = 0 + i.val * (0 + 1); omega)

/-- A vector padded by `p` entries at the high end, at an entry past the operand's. -/
theorem pad_vec_out {N N' p : Nat} (x : (⟨1, ![N]⟩ : Shape).Idx → α) {u : Shape} (v : u.Idx → α)
    (h : (⟨1, ![N]⟩ : Shape).Pads (![0] : Fin 1 → Nat) ![p] ![0] ⟨1, ![N']⟩) (hu : 0 < u.numel)
    (i : Fin N') (hi : N ≤ i.val) :
    pad (⟨1, ![N']⟩ : Shape) (![0] : Fin 1 → Nat) ![p] ![0] x v h hu (ix1 i) = v (Shape.Idx.first hu) :=
  pad_apply_out _ _ _ x v h hu (ix1 i) (0 : Fin 1) (by show N ≤ (i.val - 0) / (0 + 1); rw [Nat.sub_zero, Nat.div_one]; exact hi)

/-- Entry (r, c) of u stacked on v, for a row r that falls in u: it is u (r, c). -/
theorem join_rows_left {A B N C : Nat} (u : (⟨2, ![A, C]⟩ : Shape).Idx → α) (v : (⟨2, ![B, C]⟩ : Shape).Idx → α)
    (h : Shape.Concatenates [(⟨2, ![A, C]⟩ : Shape), ⟨2, ![B, C]⟩] ⟨2, ![N, C]⟩ 0)
    (r : Fin N) (c : Fin C) (d : Fin A) (hr : r.val = d.val) :
    concatenate (⟨2, ![N, C]⟩ : Shape) 0 [⟨⟨2, ![A, C]⟩, u⟩, ⟨⟨2, ![B, C]⟩, v⟩] h (ix2 r c) = u (ix2 d c) :=
  concatenate_pair_apply_left 0 u v h (ix2 r c) rfl (ix2 d c) (fun b => match b with
    | ⟨0, _⟩ => hr.symm
    | ⟨1, _⟩ => rfl)

/-- Entry (r, c) of u stacked on v, for a row r past u's A rows: it is v (r − A, c). -/
theorem join_rows_right {A B N C : Nat} (u : (⟨2, ![A, C]⟩ : Shape).Idx → α) (v : (⟨2, ![B, C]⟩ : Shape).Idx → α)
    (h : Shape.Concatenates [(⟨2, ![A, C]⟩ : Shape), ⟨2, ![B, C]⟩] ⟨2, ![N, C]⟩ 0)
    (r : Fin N) (c : Fin C) (d : Fin B) (hr : r.val = A + d.val) :
    concatenate (⟨2, ![N, C]⟩ : Shape) 0 [⟨⟨2, ![A, C]⟩, u⟩, ⟨⟨2, ![B, C]⟩, v⟩] h (ix2 r c) = v (ix2 d c) :=
  concatenate_pair_apply_right 0 u v h (ix2 r c) rfl rfl (ix2 d c) (fun b hb => match b, hb with
    | ⟨0, _⟩, hb => absurd rfl hb
    | ⟨1, _⟩, _ => rfl)
    (by show d.val + A = r.val; omega)

/-- The signed conversion of the zero word is the number zero. -/
theorem sitofp_zero_word (φ : FTy) : (FloatOps.sitofp (F := Ideal) φ (0#32 : BitVec 32) : EReal) = 0 := by
  show (((0#32 : BitVec 32).toInt : ℝ) : EReal) = 0
  rw [show (0#32 : BitVec 32).toInt = 0 from by decide, Int.cast_zero, EReal.coe_zero]

end Idealize.ShloMosaic.HostReads

end
-- ==== Proof.HostGlue.lean ====
/-
  The arrays that the program's preparation of its arguments leaves for the kernel, read at one index as functions of the
  arguments W1 [2047, 2048], b1 [2047], the tree table [2048, 2047], W2 [8, 2048] and b2 [8]:

  * W1 gets one zero row at the high end and is transposed: entry (d, n) is W1 (n, d) for n < 2047 and 0 for n = 2047;
  * b1 gets one zero entry at the high end and becomes a row [1, 2048];
  * the table gets one zero column at the high end; its entries are compared with 1 and with −1, the one-bit answers are
    read as the numbers 0 and 1, both matrices are transposed and stacked: row n < 2048 of the stack is the answers for 1,
    row 2048 + n the answers for −1, each at table entry (mm, n); the added column's zero word equals neither, so its
    rows are 0;
  * W2 is transposed, b2 becomes a row [1, 8].

  Rounding a float array to the narrower format is the identity over the extended reals.

  First each prepared array is written as ONE term of the arguments (the operations composed, `v…_term`); then each term
  is read at an index with the general facts about a pad, a transpose, a stack of two matrices and a leading unit axis.
-/
import proofs.«175677_j39694087750206_2_alg».proof.Proof.Gen.KernelIdeal.Frame
import proofs.«175677_j39694087750206_2_alg».proof.Proof.Spec
import proofs.«175677_j39694087750206_2_alg».proof.Proof.LibHostLine
import proofs.«175677_j39694087750206_2_alg».proof.Proof.LibHostReads
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The arguments' contents at launch: W1, b1, the tree table, W2, b2. -/
abbrev A1 : S2047x2048.Idx → EReal := m ((c.tc : Thread nD τ).loc main_arg1)
abbrev A2 : S2047.Idx → EReal := m ((c.tc : Thread nD τ).loc main_arg2)
abbrev A3 : S2048x2047.Idx → BitVec 32 := m ((c.tc : Thread nD τ).loc main_arg3)
abbrev A4 : S8x2048.Idx → EReal := m ((c.tc : Thread nD τ).loc main_arg4)
abbrev A5 : S8.Idx → EReal := m ((c.tc : Thread nD τ).loc main_arg5)

/-! ## Each prepared array as one term of the arguments -/

/-- The padding value of the two float pads: the scalar zero word converted to a float. -/
abbrev zeroF : FVec Ideal S_ .f32 := sitofp .f32 (constantI S_ 32 0#32)

/-- The table padded by one zero column at the high end. -/
abbrev treeP : S2048x2048.Idx → BitVec 32 :=
  pad S2048x2048 ![0, 0] ![0, 1] ![0, 0] (A3 m c) (constantI S_ 32 0#32) pads_S2048x2047_S2048x2048_000_010 h_S_

/-- The table's entries compared with the word `want`, the answers converted unsigned, the matrix transposed. -/
abbrev maskT (want : BitVec 32) : S2048x2048.Idx → EReal :=
  transpose S2048x2048 [1, 0] (uitofp .bf16 (cmpi .eq (treeP m c) (broadcastInDim S2048x2048 ![] bcast_S_S2048x2048 (constantI S_ 32 want))) : FVec Ideal S2048x2048 .bf16) transposes_S2048x2048_S2048x2048_1_0

theorem v4_term : (V m c main_v4 : S2048x2048.Idx → EReal) =
    truncf .bf16 (transpose S2048x2048 [1, 0] (pad S2048x2048 ![0, 0] ![1, 0] ![0, 0] (A1 m c) zeroF pads_S2047x2048_S2048x2048_010_000 h_S_) transposes_S2048x2048_S2048x2048_1_0) bitsLt_bf16_f32 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem v16_term : (V m c main_v16 : S1x2048.Idx → EReal) =
    shapeCast S1x2048 (pad S2048 ![0] ![1] ![0] (A2 m c) zeroF pads_S2047_S2048_010 h_S_) shapeCasts_S2048_S1x2048 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem v13_term : (V m c main_v13 : S4096x2048.Idx → EReal) =
    concatenate S4096x2048 0 [⟨S2048x2048, maskT m c 1#32⟩, ⟨S2048x2048, maskT m c 4294967295#32⟩] concatenates_S2048x2048_S2048x2048_S4096x2048_d0 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem v15_term : (V m c main_v15 : S2048x8.Idx → EReal) =
    (truncf .bf16 (transpose S2048x8 [1, 0] (A4 m c) transposes_S8x2048_S2048x8_1_0 : FVec Ideal S2048x8 .f32) bitsLt_bf16_f32 : FVec Ideal S2048x8 .bf16) := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

theorem v17_term : (V m c main_v17 : S1x8.Idx → EReal) = shapeCast S1x8 (A5 m c) shapeCasts_S8_S1x8 := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## The prepared arrays read at an index -/

/-- The float padding value is the number zero. -/
theorem zeroF_apply (i : S_.Idx) : zeroF i = (0 : EReal) := HostReads.sitofp_zero_word .f32

/-- No word other than the wanted one passes the gate: the zero word against 1 and against −1. -/
theorem gate_one_zero : Cert.LogTree.gate 1#32 0#32 = 0 := by
  show (((IntOp.cmpi .eq (0#32 : BitVec 32) 1#32).toNat : ℝ) : EReal) = 0
  rw [show (IntOp.cmpi .eq (0#32 : BitVec 32) 1#32).toNat = 0 from by decide, Nat.cast_zero, EReal.coe_zero]
theorem gate_neg_one_zero : Cert.LogTree.gate 4294967295#32 0#32 = 0 := by
  show (((IntOp.cmpi .eq (0#32 : BitVec 32) 4294967295#32).toNat : ℝ) : EReal) = 0
  rw [show (IntOp.cmpi .eq (0#32 : BitVec 32) 4294967295#32).toNat = 0 from by decide, Nat.cast_zero, EReal.coe_zero]

/-- The transposed mask at (n, mm): the gate on the padded table's entry (mm, n). -/
theorem maskT_apply (want : BitVec 32) (n mm : Fin 2048) :
    maskT m c want (ix2 n mm) = Cert.LogTree.gate want (treeP m c (ix2 mm n)) :=
  (transpose_ix2_apply _ _ n mm).trans rfl

/-- The padded table at (mm, n): the table inside its 2047 columns, the zero word in the added one. -/
theorem treeP_apply (mm n : Fin 2048) :
    treeP m c (ix2 mm n) = if h : n.val < 2047 then A3 m c (ix2 mm ⟨n.val, h⟩) else 0#32 := by
  by_cases h : n.val < 2047
  · rw [dif_pos h]; exact HostReads.pad_cols_in _ _ _ _ mm n h
  · rw [dif_neg h]; exact HostReads.pad_cols_out _ _ _ _ mm n (by omega)

theorem w1t_apply (d n : Fin 2048) : (V m c main_v4 : S2048x2048.Idx → EReal) (ix2 d n) = if h : n.val < 2047 then A1 m c (ix2 ⟨n.val, h⟩ d) else 0 := by
  refine (congrFun (v4_term m c) (ix2 d n)).trans ?_
  refine (truncf_apply (φ := .f32) (ψ := .bf16) _ bitsLt_bf16_f32 (ix2 d n)).trans ?_
  refine (transpose_ix2_apply _ _ d n).trans ?_
  by_cases h : n.val < 2047
  · rw [dif_pos h]; exact HostReads.pad_rows_in _ _ _ _ n d h
  · rw [dif_neg h]; exact (HostReads.pad_rows_out _ _ _ _ n d (by omega)).trans (zeroF_apply _)

theorem b1row_apply (n : Fin 2048) : (V m c main_v16 : S1x2048.Idx → EReal) (ix2 0 n) = if h : n.val < 2047 then A2 m c (ix1 ⟨n.val, h⟩) else 0 := by
  refine (congrFun (v16_term m c) (ix2 0 n)).trans ?_
  refine (shapeCast_a_1a_apply _ _ 0 n).trans ?_
  by_cases h : n.val < 2047
  · rw [dif_pos h]; exact HostReads.pad_vec_in _ _ _ _ n h
  · rw [dif_neg h]; exact (HostReads.pad_vec_out _ _ _ _ n (by omega)).trans (zeroF_apply _)

theorem mask_pos_apply (n mm : Fin 2048) : (V m c main_v13 : S4096x2048.Idx → EReal) (ix2 (⟨n.val, by have := n.isLt; omega⟩ : Fin 4096) mm) = if h : n.val < 2047 then Cert.LogTree.gate 1#32 (A3 m c (ix2 mm ⟨n.val, h⟩)) else 0 := by
  refine (congrFun (v13_term m c) _).trans ?_
  refine (HostReads.join_rows_left _ _ _ (⟨n.val, by have := n.isLt; omega⟩ : Fin 4096) mm n rfl).trans ?_
  rw [maskT_apply, treeP_apply]
  by_cases h : n.val < 2047
  · rw [dif_pos h, dif_pos h]
  · rw [dif_neg h, dif_neg h]; exact gate_one_zero

theorem mask_neg_apply (n mm : Fin 2048) : (V m c main_v13 : S4096x2048.Idx → EReal) (ix2 (⟨2048 + n.val, by have := n.isLt; omega⟩ : Fin 4096) mm) = if h : n.val < 2047 then Cert.LogTree.gate 4294967295#32 (A3 m c (ix2 mm ⟨n.val, h⟩)) else 0 := by
  refine (congrFun (v13_term m c) _).trans ?_
  refine (HostReads.join_rows_right _ _ _ (⟨2048 + n.val, by have := n.isLt; omega⟩ : Fin 4096) mm n rfl).trans ?_
  rw [maskT_apply, treeP_apply]
  by_cases h : n.val < 2047
  · rw [dif_pos h, dif_pos h]
  · rw [dif_neg h, dif_neg h]; exact gate_neg_one_zero

theorem w2t_apply (mm : Fin 2048) (k : Fin 8) : (V m c main_v15 : S2048x8.Idx → EReal) (ix2 mm k) = A4 m c (ix2 k mm) := by
  refine (congrFun (v15_term m c) (ix2 mm k)).trans ?_
  refine (truncf_apply (φ := .f32) (ψ := .bf16) _ bitsLt_bf16_f32 (ix2 mm k)).trans ?_
  exact transpose_ix2_apply _ _ mm k

theorem b2row_apply (k : Fin 8) : (V m c main_v17 : S1x8.Idx → EReal) (ix2 0 k) = A5 m c (ix1 k) := by
  refine (congrFun (v17_term m c) (ix2 0 k)).trans ?_
  exact shapeCast_a_1a_apply _ _ 0 k

end Cert.KernelIdeal.Glue

end
-- ==== Proof.KernelValue.lean ====
/-
  The kernel's result array as one function of the argument arrays.

  The grid has 32 points; point t stages rows 256·t … 256·t + 255 of the input, the four prepared parameter arrays whole,
  and writes back rows 256·t … 256·t + 255 of the result. What the body leaves for row p of the block, read at the
  prepared arrays' entries, is the fused arrangement of the gate over 2048 features (the last one padded, its two mask
  weights 0); with the first layer's inputs finite that arrangement is the specification's entry for row 256·t + p. The
  32 blocks tile the 8192 rows, so the array ends holding the specification everywhere.
-/
import proofs.«175677_j39694087750206_2_alg».proof.Proof.Gen.KernelIdeal.Value
import proofs.«175677_j39694087750206_2_alg».proof.Proof.Spec
import proofs.«175677_j39694087750206_2_alg».proof.Proof.Algebra
import proofs.«175677_j39694087750206_2_alg».proof.Proof.KernelBody
import proofs.«175677_j39694087750206_2_alg».proof.Proof.HostGlue
import Idealize.ShloMosaic.Lib.Pipeline.Value
import Idealize.ShloMosaic.Lib.ValueIdx

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.RealArrays
open Idealize.ShloMosaic.Pipeline (Dat)
open Cert.KernelIdeal.Glue (A1 A2 A3 A4 A5)

variable (m : (ℓ : Loc nD τ sig) → Buf (Elt Ideal) ℓ) (ρ : Dev nD → PrngReg)

/-- The input array as launched. -/
abbrev A0 (c : Dev nD) : S8192x2048.Idx → EReal := m ((c.tc : Thread nD τ).loc main_arg0)

/-- The specification at the six arguments as launched. -/
abbrev GK (c : Dev nD) : S8192x8.Idx → EReal :=
  Cert.LogTree.G (A0 m c) (A1 m c) (A2 m c) (A3 m c) (A4 m c) (A5 m c)

/-- The block index maps over the 32 grid points: the input and the result move one block of rows per point, the
    prepared arrays are staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the input's block at point t is row 256·t + p of the input. -/
theorem iblk0_apply (c : Dev nD) (t : Fin cfg0.N) (p : Fin 256) (d : Fin 2048) (b : Fin 8192) (hb : b.val = 256 * t.val + p.val) :
    (iblk m c 0 t : Vec Ideal S256x2048 .f32) (ix2 p d) = A0 m c (ix2 b d) := by
  obtain ⟨e0, e1, -⟩ := idx_facts t
  unfold iblk
  rw [View.read_apply]
  show (V m c main_arg0 : S8192x2048.Idx → EReal) _ = _
  refine (congrFun (V_main_arg0 m c) _).trans ?_
  refine congrArg (A0 m c) ?_
  funext a; apply Fin.ext
  match a with
  | ⟨0, _⟩ => show win0_0.index t (0 : Fin 2) * 256 + 1 * p.val = b.val; rw [e0, hb]; omega
  | ⟨1, _⟩ => show win0_0.index t (1 : Fin 2) * 2048 + 1 * d.val = d.val; rw [e1]; omega

/-- The transposed, padded first-layer weights are staged whole. -/
theorem iblk1_apply (c : Dev nD) (t : Fin cfg0.N) (d n : Fin 2048) :
    (iblk m c 1 t : Vec Ideal S2048x2048 .bf16) (ix2 d n) = (V m c main_v4 : S2048x2048.Idx → EReal) (ix2 d n) := by
  obtain ⟨-, -, e0, e1, -⟩ := idx_facts t
  unfold iblk
  rw [View.read_apply]
  show (V m c main_v4 : S2048x2048.Idx → EReal) _ = _
  refine congrArg (V m c main_v4 : S2048x2048.Idx → EReal) ?_
  funext a; apply Fin.ext
  match a with
  | ⟨0, _⟩ => show win0_1.index t (0 : Fin 2) * 2048 + 1 * d.val = d.val; rw [e0]; omega
  | ⟨1, _⟩ => show win0_1.index t (1 : Fin 2) * 2048 + 1 * n.val = n.val; rw [e1]; omega

/-- The padded bias row is staged whole. -/
theorem iblk2_apply (c : Dev nD) (t : Fin cfg0.N) (n : Fin 2048) :
    (iblk m c 2 t : Vec Ideal S1x2048 .f32) (ix2 0 n) = (V m c main_v16 : S1x2048.Idx → EReal) (ix2 0 n) := by
  obtain ⟨-, -, -, -, e0, e1, -⟩ := idx_facts t
  unfold iblk
  rw [View.read_apply]
  show (V m c main_v16 : S1x2048.Idx → EReal) _ = _
  refine congrArg (V m c main_v16 : S1x2048.Idx → EReal) ?_
  funext a; apply Fin.ext
  match a with
  | ⟨0, _⟩ => show win0_2.index t (0 : Fin 2) * 1 + 1 * 0 = 0; rw [e0]
  | ⟨1, _⟩ => show win0_2.index t (1 : Fin 2) * 2048 + 1 * n.val = n.val; rw [e1]; omega

/-- The stacked mask is staged whole. -/
theorem iblk3_apply (c : Dev nD) (t : Fin cfg0.N) (k : Fin 4096) (mm : Fin 2048) :
    (iblk m c 3 t : Vec Ideal S4096x2048 .bf16) (ix2 k mm) = (V m c main_v13 : S4096x2048.Idx → EReal) (ix2 k mm) := by
  obtain ⟨-, -, -, -, -, -, e0, e1, -⟩ := idx_facts t
  unfold iblk
  rw [View.read_apply]
  show (V m c main_v13 : S4096x2048.Idx → EReal) _ = _
  refine congrArg (V m c main_v13 : S4096x2048.Idx → EReal) ?_
  funext a; apply Fin.ext
  match a with
  | ⟨0, _⟩ => show win0_3.index t (0 : Fin 2) * 4096 + 1 * k.val = k.val; rw [e0]; omega
  | ⟨1, _⟩ => show win0_3.index t (1 : Fin 2) * 2048 + 1 * mm.val = mm.val; rw [e1]; omega

/-- The transposed second-layer weights are staged whole. -/
theorem iblk4_apply (c : Dev nD) (t : Fin cfg0.N) (mm : Fin 2048) (k : Fin 8) :
    (iblk m c 4 t : Vec Ideal S2048x8 .bf16) (ix2 mm k) = (V m c main_v15 : S2048x8.Idx → EReal) (ix2 mm k) := by
  obtain ⟨-, -, -, -, -, -, -, -, e0, e1, -⟩ := idx_facts t
  unfold iblk
  rw [View.read_apply]
  show (V m c main_v15 : S2048x8.Idx → EReal) _ = _
  refine congrArg (V m c main_v15 : S2048x8.Idx → EReal) ?_
  funext a; apply Fin.ext
  match a with
  | ⟨0, _⟩ => show win0_4.index t (0 : Fin 2) * 2048 + 1 * mm.val = mm.val; rw [e0]; omega
  | ⟨1, _⟩ => show win0_4.index t (1 : Fin 2) * 8 + 1 * k.val = k.val; rw [e1]; omega

/-- The second bias row is staged whole. -/
theorem iblk5_apply (c : Dev nD) (t : Fin cfg0.N) (k : Fin 8) :
    (iblk m c 5 t : Vec Ideal S1x8 .f32) (ix2 0 k) = (V m c main_v17 : S1x8.Idx → EReal) (ix2 0 k) := by
  obtain ⟨-, -, -, -, -, -, -, -, -, -, e0, e1, -⟩ := idx_facts t
  unfold iblk
  rw [View.read_apply]
  show (V m c main_v17 : S1x8.Idx → EReal) _ = _
  refine congrArg (V m c main_v17 : S1x8.Idx → EReal) ?_
  funext a; apply Fin.ext
  match a with
  | ⟨0, _⟩ => show win0_5.index t (0 : Fin 2) * 1 + 1 * 0 = 0; rw [e0]
  | ⟨1, _⟩ => show win0_5.index t (1 : Fin 2) * 8 + 1 * k.val = k.val; rw [e1]; omega

/-- WHAT POINT t WRITES BACK is block t of the specification, when the first layer's inputs are finite. -/
theorem flushed_eq (c : Dev nD) (h0 : IsReal (A0 m c)) (h1 : IsReal (A1 m c)) (h2 : IsReal (A2 m c)) (t : Fin cfg0.N) :
    (dats m 0 c).flushed 6 t = ((cfg0.win 6).blk t).view.read (Elt Ideal) (GK m c) := by
  have hN : cfg0.N = 32 := N_0
  rw [flushed6]
  funext j
  obtain ⟨p, k, rfl⟩ : ∃ (p : Fin 256) (k : Fin 8), j = ix2 p k := ⟨j 0, j 1, eq_ix2 j⟩
  have htl : t.val < 32 := hN ▸ t.isLt
  have hb : 256 * t.val + p.val < 8192 := by have := p.isLt; omega
  obtain ⟨-, -, -, -, -, -, -, -, -, -, -, -, e0, e1⟩ := idx_facts t
  have he : ((cfg0.win 6).blk t).view.emb (ix2 p k) = (ix2 (⟨256 * t.val + p.val, hb⟩ : Fin 8192) k : S8192x8.Idx) := by
    funext a; apply Fin.ext
    match a with
    | ⟨0, _⟩ => show win0_6.index t (0 : Fin 2) * 256 + 1 * p.val = 256 * t.val + p.val; rw [e0]; omega
    | ⟨1, _⟩ => show win0_6.index t (1 : Fin 2) * 8 + 1 * k.val = k.val; rw [e1]; omega
  show out0_6 (iblk m c 0 t) (iblk m c 1 t) (iblk m c 2 t) (iblk m c 3 t) (iblk m c 4 t) (iblk m c 5 t) (ix2 p k)
    = GK m c (((cfg0.win 6).blk t).view.emb (ix2 p k))
  rw [he]
  refine (Cert.KernelIdeal.Body.out_apply (iblk m c 0 t) (iblk m c 1 t) (iblk m c 2 t) (iblk m c 3 t) (iblk m c 4 t) (iblk m c 5 t) p k).trans ?_
  show _ = Cert.LogTree.out (A0 m c) (A1 m c) (A2 m c) (A3 m c) (A4 m c) (A5 m c) ⟨256 * t.val + p.val, hb⟩ k
  unfold Cert.LogTree.out
  refine congrArg₂ (· + ·) (Finset.sum_congr rfl fun mm _ => congrArg₂ (· * ·) (congrArg Ideal.exp ?_) ?_) ?_
  · -- the log of the masked product: the fused arrangement over the padded features
    refine Cert.LogTree.fused_eq_logProd h0 h1 h2 (A3 m c) ⟨256 * t.val + p.val, hb⟩ mm
      (fun n => Cert.KernelIdeal.Body.zK (iblk m c 0 t) (iblk m c 1 t) (iblk m c 2 t) p n)
      (fun n => (iblk m c 3 t : Vec Ideal S4096x2048 .bf16) (ix2 (⟨n.val, by have := n.isLt; omega⟩ : Fin 4096) mm))
      (fun n => (iblk m c 3 t : Vec Ideal S4096x2048 .bf16) (ix2 (⟨2048 + n.val, by have := n.isLt; omega⟩ : Fin 4096) mm))
      ?_ ?_ ?_ ?_ ?_
    · intro n
      have hn : (n.castSucc : Fin 2048).val < 2047 := n.isLt
      show Cert.KernelIdeal.Body.zK (iblk m c 0 t) (iblk m c 1 t) (iblk m c 2 t) p n.castSucc = _
      unfold Cert.KernelIdeal.Body.zK Cert.LogTree.preact
      rw [iblk2_apply, Cert.KernelIdeal.Glue.b1row_apply, dif_pos hn]
      refine congrArg (Cert.LogTree.ten * ·) (congrArg₂ (· + ·) (Finset.sum_congr rfl fun d _ => ?_) rfl)
      rw [iblk0_apply m c t p d ⟨256 * t.val + p.val, hb⟩ rfl, iblk1_apply, Cert.KernelIdeal.Glue.w1t_apply, dif_pos hn]
      rfl
    · intro n
      have hn : (n.castSucc : Fin 2048).val < 2047 := n.isLt
      show (iblk m c 3 t : Vec Ideal S4096x2048 .bf16) (ix2 (⟨(n.castSucc : Fin 2048).val, _⟩ : Fin 4096) mm) = _
      rw [iblk3_apply, Cert.KernelIdeal.Glue.mask_pos_apply m c n.castSucc mm, dif_pos hn]
      rfl
    · show (iblk m c 3 t : S4096x2048.Idx → EReal) (ix2 (⟨(Fin.last 2047).val, _⟩ : Fin 4096) mm) = (0 : EReal)
      rw [iblk3_apply, Cert.KernelIdeal.Glue.mask_pos_apply m c (Fin.last 2047) mm, dif_neg (by show ¬ (2047 < 2047); omega)]
    · intro n
      have hn : (n.castSucc : Fin 2048).val < 2047 := n.isLt
      show (iblk m c 3 t : Vec Ideal S4096x2048 .bf16) (ix2 (⟨2048 + (n.castSucc : Fin 2048).val, _⟩ : Fin 4096) mm) = _
      rw [iblk3_apply, Cert.KernelIdeal.Glue.mask_neg_apply m c n.castSucc mm, dif_pos hn]
      rfl
    · show (iblk m c 3 t : S4096x2048.Idx → EReal) (ix2 (⟨2048 + (Fin.last 2047).val, _⟩ : Fin 4096) mm) = (0 : EReal)
      rw [iblk3_apply, Cert.KernelIdeal.Glue.mask_neg_apply m c (Fin.last 2047) mm, dif_neg (by show ¬ (2047 < 2047); omega)]
  · rw [iblk4_apply, Cert.KernelIdeal.Glue.w2t_apply]
  · rw [iblk5_apply, Cert.KernelIdeal.Glue.b2row_apply]

/-- An index of the result array is in point t's block iff each coordinate is in the block's range on its axis. -/
theorem mem_blk (t : Fin cfg0.N) (i : S8192x8.Idx) :
    i ∈ ((cfg0.win 6).blk t).view.set ↔ ∀ a : Fin 2, win0_6.index t a * S256x8.size a ≤ (i a).val ∧ (i a).val < win0_6.index t a * S256x8.size a + S256x8.size a := by
  show i ∈ ((View.whole main_v18).slice (win0_6.rect t)).set ↔ _
  rw [View.set_slice_whole, Rect.mem_set_unit]
  exact Iff.rfl

/-- Row r of the result lies in the block of point r / 256: the 32 blocks tile the 8192 rows. -/
theorem cover (i : S8192x8.Idx) : ∃ t : Fin cfg0.N, (cfg0.win 6).flush t = true ∧ i ∈ ((cfg0.win 6).blk t).view.set := by
  have hN : cfg0.N = 32 := N_0
  have hi0 : (i 0).val < 8192 := (i 0).isLt
  have hi1 : (i 1).val < 8 := (i 1).isLt
  have ht : (i 0).val / 256 < cfg0.N := by rw [hN]; omega
  refine ⟨⟨(i 0).val / 256, ht⟩, flush0_6 _, ?_⟩
  rw [mem_blk]
  obtain ⟨-, -, -, -, -, -, -, -, -, -, -, -, e0, e1⟩ := idx_facts ⟨(i 0).val / 256, ht⟩
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, ht⟩ (1 : Fin 2) * 8 ≤ (i 1).val ∧ (i 1).val < win0_6.index ⟨(i 0).val / 256, ht⟩ (1 : Fin 2) * 8 + 8
    rw [e1]; omega

/-- THE ARRAY after the run is the specification of the arguments as launched. -/
theorem final (c : Dev nD) (h0 : IsReal (A0 m c)) (h1 : IsReal (A1 m c)) (h2 : IsReal (A2 m c)) :
    (dats m 0 c).arrAt 6 cfg0.N = GK m c :=
  (dats m 0 c).arrAt_eq_of_cover 6 (GK m c) (fun t _ => flushed_eq m c h0 h1 h2 t) cover

/-- The kernel's run, read: the result array at the specification of the arguments, the arguments unchanged. -/
theorem run (hreal : ∀ c : Dev nD, IsReal (A0 m c) ∧ IsReal (A1 m c) ∧ IsReal (A2 m c)) :
    θ_run defs (onTc (τ := τ) (main (F := Ideal))) ⟨m, fun _ => 0, ρ⟩ fun r => ∀ c : Dev nD,
      r.2.mem ((c : Thread nD τ).loc main_v18) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hreal c).1 (hreal c).2.1 (hreal c).2.2), (h c).2⟩)
    (run_blocks m ρ)

end Cert.KernelIdeal.KValue

end
-- ==== Proof.RefTerm.lean ====
/-
  The reference's result as one term of its six argument arrays: its operations composed in order, the two outlined
  functions (softplus, and the log-sigmoid built on it) once each and applied twice.
-/
import proofs.«175677_j39694087750206_2_alg».proof.ReferenceIdeal

noncomputable section

namespace Cert.ReferenceIdeal.RefTerm

open Idealize.ShloMosaic Cert.ReferenceIdeal
open Facts₀ Facts

variable {F : FTy → Type} [FloatOps F] [Facts]

/-- softplus, operation by operation: max(x, 0) + log1p(exp(−|x − 0|)), under a guard on "x − 0 differs from itself". -/
def softplusT (x : FVec F S8192x2047 .f32) : FVec F S8192x2047 .f32 :=
  have cst : FVec F S_ .f32 := constant S_ .f32 0x00000000#32
  have v0 : FVec F S8192x2047 .f32 := broadcastInDim S8192x2047 ![] bcast_S_S8192x2047 cst
  have v1 : FVec F S8192x2047 .f32 := maximumf x v0
  have v2 : FVec F S8192x2047 .f32 := broadcastInDim S8192x2047 ![] bcast_S_S8192x2047 cst
  have v3 : FVec F S8192x2047 .f32 := subf x v2
  have v4 : IVec S8192x2047 1 := cmpf .une v3 v3
  have v5 : FVec F S8192x2047 .f32 := broadcastInDim S8192x2047 ![] bcast_S_S8192x2047 cst
  have v6 : FVec F S8192x2047 .f32 := addf x v5
  have v7 : FVec F S8192x2047 .f32 := Host.absf v3
  have v8 : FVec F S8192x2047 .f32 := Host.negf v7
  have v9 : FVec F S8192x2047 .f32 := Host.exp v8
  have v10 : FVec F S8192x2047 .f32 := Host.log1p v9
  have v11 : FVec F S8192x2047 .f32 := addf v1 v10
  select v4 v6 v11

/-- log-sigmoid: −softplus(−x). -/
def logSigmoidT (x : FVec F S8192x2047 .f32) : FVec F S8192x2047 .f32 :=
  Host.negf (softplusT (Host.negf x))

/-- The reference's result. -/
def refTerm (a0 : FVec F S8192x2048 .f32) (a1 : FVec F S2047x2048 .f32) (a2 : FVec F S2047 .f32) (a3 : IVec S2048x2047 32)
    (a4 : FVec F S8x2048 .f32) (a5 : FVec F S8 .f32) : FVec F S8192x8 .f32 :=
  have v0 : FVec F S2048x2047 .f32 := transpose S2048x2047 [1, 0] a1 transposes_S2047x2048_S2048x2047_1_0
  have v1 : FVec F S8192x2047 .f32 := Host.dotGeneral dot_S8192x2048_S2048x2047_S8192x2047_1_0_0_1_n_n none a0 v0
  have v2 : FVec F S1x2047 .f32 := broadcastInDim S1x2047 ![1] bcast_S2047_S1x2047_1 a2
  have v3 : FVec F S8192x2047 .f32 := broadcastInDim S8192x2047 ![0, 1] bcast_S1x2047_S8192x2047_0_1 v2
  have v4 : FVec F S8192x2047 .f32 := addf v1 v3
  have cst : FVec F S_ .f32 := constant S_ .f32 0x41200000#32
  have v5 : FVec F S8192x2047 .f32 := broadcastInDim S8192x2047 ![] bcast_S_S8192x2047 cst
  have v6 : FVec F S8192x2047 .f32 := mulf v5 v4
  have c : IVec S_ 32 := constantI S_ 32 1#32
  have v7 : IVec S2048x2047 32 := broadcastInDim S2048x2047 ![] bcast_S_S2048x2047 c
  have v8 : IVec S2048x2047 1 := cmpi .eq a3 v7
  have v9 : FVec F S2048x2047 .f32 := uitofp .f32 v8
  have c_0 : IVec S_ 32 := constantI S_ 32 4294967295#32
  have v10 : IVec S2048x2047 32 := broadcastInDim S2048x2047 ![] bcast_S_S2048x2047 c_0
  have v11 : IVec S2048x2047 1 := cmpi .eq a3 v10
  have v12 : FVec F S2048x2047 .f32 := uitofp .f32 v11
  have v13 : FVec F S8192x2047 .f32 := Host.negf v6
  have v14 : FVec F S8192x2047 .f32 := logSigmoidT v13
  have v15 : FVec F S8192x2048 .f32 := Host.dotGeneral dot_S8192x2047_S2048x2047_S8192x2048_1_1_0_0_n_n none v14 v9
  have v16 : FVec F S8192x2047 .f32 := logSigmoidT v6
  have v17 : FVec F S8192x2048 .f32 := Host.dotGeneral dot_S8192x2047_S2048x2047_S8192x2048_1_1_0_0_n_n none v16 v12
  have v18 : FVec F S8192x2048 .f32 := addf v15 v17
  have v19 : FVec F S8192x2048 .f32 := Host.exp v18
  have v20 : FVec F S2048x8 .f32 := transpose S2048x8 [1, 0] a4 transposes_S8x2048_S2048x8_1_0
  have v21 : FVec F S8192x8 .f32 := Host.dotGeneral dot_S8192x2048_S2048x8_S8192x8_1_0_0_1_n_n none v19 v20
  have v22 : FVec F S1x8 .f32 := broadcastInDim S1x8 ![1] bcast_S8_S1x8_1 a5
  have v23 : FVec F S8192x8 .f32 := broadcastInDim S8192x8 ![0, 1] bcast_S1x8_S8192x8_0_1 v22
  addf v21 v23

end Cert.ReferenceIdeal.RefTerm

end
-- ==== Proof.RefRun.lean ====
/-
  The reference program's run. Its entry function calls the log-sigmoid function twice, and that one calls softplus:
  the called functions' operations are listed in the calls' places, over each call's own buffers, so that the whole
  program is one straight line of fifty-eight array operations. Every weakly fair execution of it terminates; the
  result buffer then holds the operations' composition applied to the six argument arrays (the term `refTerm`), and
  the argument buffers are unchanged.
-/
import proofs.«175677_j39694087750206_2_alg».proof.Proof.Gen.ReferenceIdeal
import proofs.«175677_j39694087750206_2_alg».proof.Proof.RefTerm
import proofs.«175677_j39694087750206_2_alg».proof.Proof.LibHostLine
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's fifty-eight operations, in order: seventeen of the entry function, the first log-sigmoid call's sixteen (a negation, softplus's fourteen, a negation), a matrix product, the second call's sixteen, and the last eight. -/
abbrev ops : List (HloOp τ sig (Elt F)) :=
  [ StableHlo.unary main_arg1 main_v0 ((transpose S2048x2047 [1, 0] · transposes_S2047x2048_S2048x2047_1_0) : (⟨S2047x2048, .f32⟩ : BufTy).Contents (Elt F) → (⟨S2048x2047, .f32⟩ : BufTy).Contents (Elt F)),
    StableHlo.binary main_arg0 main_v0 main_v1 ((fun l r => Host.dotGeneral dot_S8192x2048_S2048x2047_S8192x2047_1_0_0_1_n_n none l r) : (⟨S8192x2048, .f32⟩ : BufTy).Contents (Elt F) → (⟨S2048x2047, .f32⟩ : BufTy).Contents (Elt F) → (⟨S8192x2047, .f32⟩ : BufTy).Contents (Elt F)),
    StableHlo.unary main_arg2 main_v2 (broadcastInDim S1x2047 ![1] bcast_S2047_S1x2047_1 : (⟨S2047, .f32⟩ : BufTy).Contents (Elt F) → (⟨S1x2047, .f32⟩ : BufTy).Contents (Elt F)),
    StableHlo.unary main_v2 main_v3 (broadcastInDim S8192x2047 ![0, 1] bcast_S1x2047_S8192x2047_0_1 : (⟨S1x2047, .f32⟩ : BufTy).Contents (Elt F) → (⟨S8192x2047, .f32⟩ : BufTy).Contents (Elt F)),
    StableHlo.binary main_v1 main_v3 main_v4 (addf : (⟨S8192x2047, .f32⟩ : BufTy).Contents (Elt F) → (⟨S8192x2047, .f32⟩ : BufTy).Contents (Elt F) → (⟨S8192x2047, .f32⟩ : BufTy).Contents (Elt F)),
    StableHlo.nullary main_cst (constant S_ .f32 0x41200000#32),
    StableHlo.unary main_cst main_v5 (broadcastInDim S8192x2047 ![] bcast_S_S8192x2047 : (⟨S_, .f32⟩ : BufTy).Contents (Elt F) → (⟨S8192x2047, .f32⟩ : BufTy).Contents (Elt F)),
    StableHlo.binary main_v5 main_v4 main_v6 (mulf : (⟨S8192x2047, .f32⟩ : BufTy).Contents (Elt F) → (⟨S8192x2047, .f32⟩ : BufTy).Contents (Elt F) → (⟨S8192x2047, .f32⟩ : BufTy).Contents (Elt F)),
    StableHlo.nullary main_c (constantI S_ 32 1#32),
    StableHlo.unary main_c main_v7 (broadcastInDim S2048x2047 ![] bcast_S_S2048x2047 : (⟨S_, .i32⟩ : BufTy).Contents (Elt F) → (⟨S2048x2047, .i32⟩ : BufTy).Contents (Elt F)),
    StableHlo.binary main_arg3 main_v7 main_v8 (cmpi .eq : (⟨S2048x2047, .i32⟩ : BufTy).Contents (Elt F) → (⟨S2048x2047, .i32⟩ : BufTy).Contents (Elt F) → (⟨S2048x2047, .i1⟩ : BufTy).Contents (Elt F)),
    StableHlo.unary main_v8 main_v9 (uitofp .f32 : (⟨S2048x2047, .i1⟩ : BufTy).Contents (Elt F) → (⟨S2048x2047, .f32⟩ : BufTy).Contents (Elt F)),
    StableHlo.nullary main_c_0 (constantI S_ 32 4294967295#32),
    StableHlo.unary main_c_0 main_v10 (broadcastInDim S2048x2047 ![] bcast_S_S2048x2047 : (⟨S_, .i32⟩ : BufTy).Contents (Elt F) → (⟨S2048x2047, .i32⟩ : BufTy).Contents (Elt F)),
    StableHlo.binary main_arg3 main_v10 main_v11 (cmpi .eq : (⟨S2048x2047, .i32⟩ : BufTy).Contents (Elt F) → (⟨S2048x2047, .i32⟩ : BufTy).Contents (Elt F) → (⟨S2048x2047, .i1⟩ : BufTy).Contents (Elt F)),
    StableHlo.unary main_v11 main_v12 (uitofp .f32 : (⟨S2048x2047, .i1⟩ : BufTy).Contents (Elt F) → (⟨S2048x2047, .f32⟩ : BufTy).Contents (Elt F)),
    StableHlo.unary main_v6 main_v13 (Host.negf : (⟨S8192x2047, .f32⟩ : BufTy).Contents (Elt F) → (⟨S8192x2047, .f32⟩ : BufTy).Contents (Elt F)),
    StableHlo.TRef.unary (.of main_v13 : StableHlo.TRef sig ⟨S8192x2047, .f32⟩) main_call0.v0 Host.negf,
    StableHlo.TRef.nullary main_call0.call0.cst (constant S_ .f32 0x00000000#32),
    StableHlo.TRef.unary main_call0.call0.cst main_call0.call0.v0 (broadcastInDim S8192x2047 ![] bcast_S_S8192x2047),
    StableHlo.TRef.binary main_call0.v0 main_call0.call0.v0 main_call0.call0.v1 maximumf,
    StableHlo.TRef.unary main_call0.call0.cst main_call0.call0.v2 (broadcastInDim S8192x2047 ![] bcast_S_S8192x2047),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S8192x2047 ![] bcast_S_S8192x2047),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.binary main_v14 main_v9 main_v15 ((fun l r => Host.dotGeneral dot_S8192x2047_S2048x2047_S8192x2048_1_1_0_0_n_n none l r) : (⟨S8192x2047, .f32⟩ : BufTy).Contents (Elt F) → (⟨S2048x2047, .f32⟩ : BufTy).Contents (Elt F) → (⟨S8192x2048, .f32⟩ : BufTy).Contents (Elt F)),
    StableHlo.TRef.unary (.of main_v6 : StableHlo.TRef sig ⟨S8192x2047, .f32⟩) main_call1.v0 Host.negf,
    StableHlo.TRef.nullary main_call1.call0.cst (constant S_ .f32 0x00000000#32),
    StableHlo.TRef.unary main_call1.call0.cst main_call1.call0.v0 (broadcastInDim S8192x2047 ![] bcast_S_S8192x2047),
    StableHlo.TRef.binary main_call1.v0 main_call1.call0.v0 main_call1.call0.v1 maximumf,
    StableHlo.TRef.unary main_call1.call0.cst main_call1.call0.v2 (broadcastInDim S8192x2047 ![] bcast_S_S8192x2047),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S8192x2047 ![] bcast_S_S8192x2047),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_v16 main_v12 main_v17 ((fun l r => Host.dotGeneral dot_S8192x2047_S2048x2047_S8192x2048_1_1_0_0_n_n none l r) : (⟨S8192x2047, .f32⟩ : BufTy).Contents (Elt F) → (⟨S2048x2047, .f32⟩ : BufTy).Contents (Elt F) → (⟨S8192x2048, .f32⟩ : BufTy).Contents (Elt F)),
    StableHlo.binary main_v15 main_v17 main_v18 (addf : (⟨S8192x2048, .f32⟩ : BufTy).Contents (Elt F) → (⟨S8192x2048, .f32⟩ : BufTy).Contents (Elt F) → (⟨S8192x2048, .f32⟩ : BufTy).Contents (Elt F)),
    StableHlo.unary main_v18 main_v19 (Host.exp : (⟨S8192x2048, .f32⟩ : BufTy).Contents (Elt F) → (⟨S8192x2048, .f32⟩ : BufTy).Contents (Elt F)),
    StableHlo.unary main_arg4 main_v20 ((transpose S2048x8 [1, 0] · transposes_S8x2048_S2048x8_1_0) : (⟨S8x2048, .f32⟩ : BufTy).Contents (Elt F) → (⟨S2048x8, .f32⟩ : BufTy).Contents (Elt F)),
    StableHlo.binary main_v19 main_v20 main_v21 ((fun l r => Host.dotGeneral dot_S8192x2048_S2048x8_S8192x8_1_0_0_1_n_n none l r) : (⟨S8192x2048, .f32⟩ : BufTy).Contents (Elt F) → (⟨S2048x8, .f32⟩ : BufTy).Contents (Elt F) → (⟨S8192x8, .f32⟩ : BufTy).Contents (Elt F)),
    StableHlo.unary main_arg5 main_v22 (broadcastInDim S1x8 ![1] bcast_S8_S1x8_1 : (⟨S8, .f32⟩ : BufTy).Contents (Elt F) → (⟨S1x8, .f32⟩ : BufTy).Contents (Elt F)),
    StableHlo.unary main_v22 main_v23 (broadcastInDim S8192x8 ![0, 1] bcast_S1x8_S8192x8_0_1 : (⟨S1x8, .f32⟩ : BufTy).Contents (Elt F) → (⟨S8192x8, .f32⟩ : BufTy).Contents (Elt F)),
    StableHlo.binary main_v21 main_v23 main_v24 (addf : (⟨S8192x8, .f32⟩ : BufTy).Contents (Elt F) → (⟨S8192x8, .f32⟩ : BufTy).Contents (Elt F) → (⟨S8192x8, .f32⟩ : BufTy).Contents (Elt F)) ]

-- fifty-eight binds re-associated: the rewrite under the chain recurses once per statement
set_option maxRecDepth 2048 in
/-- The entry function is that straight line: the called functions' definitions unfolded at their calls, both sides
    are one chain of steps once sequencing is re-associated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub ..⟩

set_option maxRecDepth 8192 in
set_option maxHeartbeats 2000000 in
/-- The result buffer after the line: each operation's result read at its own buffer is its function of its operands'
    contents, and at any other buffer what was there; what is left differs from `refTerm` by the unfolding of its
    definitions and by transports along equations between equal types, the identity. -/
theorem out_eq (V : Valuation τ sig (Elt F)) :
    after ops V (Proc.devRef .tc main_v24)
      = RefTerm.refTerm (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

set_option maxRecDepth 8192 in
set_option maxHeartbeats 2000000 in
/-- No operation writes argument 0's buffer. -/
theorem arg0_eq (V : Valuation τ sig (Elt F)) :
    after ops V (Proc.devRef .tc main_arg0) = V (Proc.devRef .tc main_arg0) := by
  after_results_simp

set_option maxRecDepth 8192 in
set_option maxHeartbeats 2000000 in
/-- No operation writes argument 1's buffer. -/
theorem arg1_eq (V : Valuation τ sig (Elt F)) :
    after ops V (Proc.devRef .tc main_arg1) = V (Proc.devRef .tc main_arg1) := by
  after_results_simp

set_option maxRecDepth 8192 in
set_option maxHeartbeats 2000000 in
/-- No operation writes argument 2's buffer. -/
theorem arg2_eq (V : Valuation τ sig (Elt F)) :
    after ops V (Proc.devRef .tc main_arg2) = V (Proc.devRef .tc main_arg2) := by
  after_results_simp

set_option maxRecDepth 8192 in
set_option maxHeartbeats 2000000 in
/-- No operation writes argument 3's buffer. -/
theorem arg3_eq (V : Valuation τ sig (Elt F)) :
    after ops V (Proc.devRef .tc main_arg3) = V (Proc.devRef .tc main_arg3) := by
  after_results_simp

set_option maxRecDepth 8192 in
set_option maxHeartbeats 2000000 in
/-- No operation writes argument 4's buffer. -/
theorem arg4_eq (V : Valuation τ sig (Elt F)) :
    after ops V (Proc.devRef .tc main_arg4) = V (Proc.devRef .tc main_arg4) := by
  after_results_simp

set_option maxRecDepth 8192 in
set_option maxHeartbeats 2000000 in
/-- No operation writes argument 5's buffer. -/
theorem arg5_eq (V : Valuation τ sig (Elt F)) :
    after ops V (Proc.devRef .tc main_arg5) = V (Proc.devRef .tc main_arg5) := by
  after_results_simp

/-- On every device, for any float values, from any memory with zero counters: every weakly fair execution of the
    program terminates with the result buffer at `refTerm` of the six arguments' launch contents, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v24) = Cert.ReferenceIdeal.RefTerm.refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v24).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The reference's result is the specification, entry by entry.

  Each operation of the reference is read at one index: a transpose swaps the two coordinates, a vector broadcast
  down the rows reads the vector at the column, a broadcast constant reads the constant, a product of two matrices
  read at an entry is the sum over the contracted axis of the products of the entries, and the pointwise operations
  are the extended reals' own. The guard of the softplus, "x − 0 differs from itself", is false of every extended
  real, so the select takes its second branch and the softplus is max(x, 0) + log(1 + e^{−|x|}). Nothing here uses
  that an input is finite: the two sides are the same sums of the same products.
-/
import proofs.«175677_j39694087750206_2_alg».proof.Proof.Gen.ReferenceIdeal
import proofs.«175677_j39694087750206_2_alg».proof.Proof.RefTerm
import proofs.«175677_j39694087750206_2_alg».proof.Proof.Spec
import proofs.«175677_j39694087750206_2_alg».proof.Proof.LibRowsTimes
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue
open Cert.ReferenceIdeal Cert.ReferenceIdeal.Gen Idealize.ShloMosaic Idealize.ShloMosaic.ValueIdx

/-! ## A product of two matrices, both contracted along their second axis, read at an entry -/

section RowsRows
variable {M K N : Nat}

/-- For the dimension numbers of an `[M, K] × [N, K] → [M, N]` product (both operands contracted on their second
    axis, no batch axis), at the result index `(r, c)` and contraction position `k` the left operand is read at
    `(r, k)` and the right at `(c, k)`; `e` is the bijection between the contraction index and `Fin K`. -/
theorem rowsRows_idx (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 c k := by
  have key : ∀ (p q : Nat) (hp : p < 2) (hq : q < 2), p = q →
      ((ix2 r c : (⟨2, ![M, N]⟩ : Shape).Idx) ⟨p, hp⟩).val = ((ix2 r c : (⟨2, ![M, N]⟩ : Shape).Idx) ⟨q, hq⟩).val :=
    fun p q hp hq h => by subst h; rfl
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = c.val
      unfold DotDims.rhsIdx
      rw [dif_neg (by rw [h6]; exact List.not_mem_nil), dif_pos (by rw [h4]; exact List.mem_singleton.mpr rfl)]
      simp only [Fin.val_cast]
      exact key _ 1 _ (by decide) (by simp [h5, h3, h4])
    | ⟨1, _⟩ =>
      show (d.rhsIdx (ix2 r c) ((contrEquiv1 d K hr hs).symm k) 1).val = k.val
      rw [d.rhsIdx_val_of_single h2]
      exact contrEquiv1_symm_val d K hr hs k

/-- The contraction sum of such a product at `(r, c)`: the sum over `k : Fin K` at the operand indices `(r, k)`
    and `(c, k)`. -/
theorem rowsRows_sum {β : Type*} [AddCommMonoid β] (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K)
    (f : (⟨2, ![M, K]⟩ : Shape).Idx → (⟨2, ![N, K]⟩ : Shape).Idx → β) (r : Fin M) (c : Fin N) :
    ∑ q : d.contr.Idx, f (d.lhsIdx (ix2 r c) q) (d.rhsIdx (ix2 r c) q) = ∑ k : Fin K, f (ix2 r k) (ix2 c k) := by
  rw [← Equiv.sum_comp (contrEquiv1 d K hr hs).symm]
  refine Finset.sum_congr rfl fun k _ => ?_
  obtain ⟨hl, hr'⟩ := rowsRows_idx d h1 h2 h3 h4 h5 h6 hr hs r c k
  rw [hl, hr']

/-- The host's `dot_general` of such a product, at an entry: the sum over `k` of `x (r, k) · w (c, k)`. -/
theorem hostDotRows_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![N, K]⟩ φ₂) (r : Fin M) (c : Fin N) :
    Host.dotGeneral (F := Ideal) d prec x w (ix2 r c) = ∑ k : Fin K, x (ix2 r k) * w (ix2 c k) :=
  (Ideal.dotGeneral_apply d prec .single x w (ix2 r c)).trans
    (rowsRows_sum d h1 h2 h3 h4 h5 h6 hr hs (fun i j => x i * w j) r c)

end RowsRows

/-! ## A vector broadcast down the rows -/

/-- A vector made a one-row matrix and that row repeated down `m` rows reads, at `(r, c)`, the vector at `c`. -/
theorem rowBcast_apply {α : Type} {m n : Nat}
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) := by
  have hc : c.val = if n = 1 then 0 else c.val := by
    split
    · have := c.isLt; omega
    · rfl
  refine (broadcastInDim_apply ![0, 1] h2 _ (ix2 r c) (ix2 (0 : Fin 1) c) fun a => ?_).trans
    (broadcastInDim_apply ![1] h1 v (ix2 (0 : Fin 1) c) (ix1 c) fun a => ?_)
  · match a with
    | ⟨0, _⟩ =>
      show (0 : ℕ) = if (1 : ℕ) = 1 then 0 else _
      simp
    | ⟨1, _⟩ =>
      show c.val = if n = 1 then 0 else c.val
      exact hc
  · match a with
    | ⟨0, _⟩ =>
      show c.val = if n = 1 then 0 else c.val
      exact hc

/-! ## The softplus and the log-sigmoid at an index -/

/-- No extended real differs from itself: the comparison's bit is 0. -/
theorem cmp_une_self (v : EReal) : Ideal.cmp .une v v = 0#1 := by
  simp [Ideal.cmp]

/-- The program's softplus at an index is the specification's softplus of the element. -/
theorem softplusT_apply (x : FVec Ideal S8192x2047 .f32) (i : S8192x2047.Idx) :
    Cert.ReferenceIdeal.RefTerm.softplusT (F := Ideal) x i = Cert.LogTree.softplus (x i) := by
  show Scalar.select
      (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32)
            (-(x i - Ideal.ofBits .f32 0x00000000#32)))))) = _
  rw [cmp_une_self, select_zero, Ideal.ofBits_zero_f32, sub_zero]
  rfl

/-- The program's log-sigmoid at an index is the specification's log-sigmoid of the element. -/
theorem logSigmoidT_apply (x : FVec Ideal S8192x2047 .f32) (i : S8192x2047.Idx) :
    Cert.ReferenceIdeal.RefTerm.logSigmoidT (F := Ideal) x i = Cert.LogTree.logSigmoid (x i) := by
  show -(Cert.ReferenceIdeal.RefTerm.softplusT (F := Ideal) (Host.negf x) i) = _
  rw [softplusT_apply]
  rfl

/-! ## The three stages of the reference, each read at an entry -/

/-- The first stage: ten times (the first product plus the first bias), at `(b, n)`. -/
theorem first_apply (a0 : FVec Ideal S8192x2048 .f32) (a1 : FVec Ideal S2047x2048 .f32) (a2 : FVec Ideal S2047 .f32)
    (b : Fin 8192) (n : Fin 2047) :
    mulf (broadcastInDim S8192x2047 ![] bcast_S_S8192x2047 (constant (F := Ideal) S_ .f32 0x41200000#32))
      (addf
        (Host.dotGeneral (F := Ideal) dot_S8192x2048_S2048x2047_S8192x2047_1_0_0_1_n_n none a0
          (transpose S2048x2047 [1, 0] a1 transposes_S2047x2048_S2048x2047_1_0))
        (broadcastInDim S8192x2047 ![0, 1] bcast_S1x2047_S8192x2047_0_1
          (broadcastInDim S1x2047 ![1] bcast_S2047_S1x2047_1 a2)))
      (ix2 b n)
      = Cert.LogTree.preact a0 a1 a2 b n := by
  refine (mulf_apply _ _ _).trans (congrArg₂ (· * ·) rfl ?_)
  refine (addf_apply _ _ _).trans (congrArg₂ (· + ·) ?_ (rowBcast_apply _ _ a2 b n))
  refine (congrFun (RowsTimes.hostDot_eq (M := 8192) (K := 2048) (N := 2047)
    dot_S8192x2048_S2048x2047_S8192x2047_1_0_0_1_n_n rfl rfl rfl rfl rfl rfl rfl rfl none a0 _) (ix2 b n)).trans ?_
  refine (RowsTimes.rowsTimes_apply _ _ b n).trans (Finset.sum_congr rfl fun d _ => ?_)
  exact congrArg₂ (· * ·) rfl (transpose_ix2_apply a1 _ d n)

/-- The middle stage: the two gated sums of log-sigmoids, at `(b, mm)`, for any array `Z` of pre-activations. -/
theorem mid_apply (Z : FVec Ideal S8192x2047 .f32) (a3 : IVec S2048x2047 32) (b : Fin 8192) (mm : Fin 2048) :
    addf
      (Host.dotGeneral (F := Ideal) dot_S8192x2047_S2048x2047_S8192x2048_1_1_0_0_n_n none
        (Cert.ReferenceIdeal.RefTerm.logSigmoidT (F := Ideal) (Host.negf Z))
        (uitofp (F := Ideal) .f32
          (cmpi .eq a3 (broadcastInDim S2048x2047 ![] bcast_S_S2048x2047 (constantI S_ 32 1#32)))))
      (Host.dotGeneral (F := Ideal) dot_S8192x2047_S2048x2047_S8192x2048_1_1_0_0_n_n none
        (Cert.ReferenceIdeal.RefTerm.logSigmoidT (F := Ideal) Z)
        (uitofp (F := Ideal) .f32
          (cmpi .eq a3 (broadcastInDim S2048x2047 ![] bcast_S_S2048x2047 (constantI S_ 32 4294967295#32)))))
      (ix2 b mm)
      = (∑ n : Fin 2047, Cert.LogTree.logSigmoid (-(Z (ix2 b n))) * Cert.LogTree.gate 1#32 (a3 (ix2 mm n)))
        + ∑ n : Fin 2047, Cert.LogTree.logSigmoid (Z (ix2 b n)) * Cert.LogTree.gate 4294967295#32 (a3 (ix2 mm n)) := by
  refine (addf_apply _ _ _).trans (congrArg₂ (· + ·) ?_ ?_)
  · refine (hostDotRows_apply (M := 8192) (K := 2047) (N := 2048)
      dot_S8192x2047_S2048x2047_S8192x2048_1_1_0_0_n_n rfl rfl rfl rfl rfl rfl rfl rfl none _ _ b mm).trans
      (Finset.sum_congr rfl fun n _ => ?_)
    exact congrArg₂ (· * ·) (logSigmoidT_apply (Host.negf Z) (ix2 b n)) rfl
  · refine (hostDotRows_apply (M := 8192) (K := 2047) (N := 2048)
      dot_S8192x2047_S2048x2047_S8192x2048_1_1_0_0_n_n rfl rfl rfl rfl rfl rfl rfl rfl none _ _ b mm).trans
      (Finset.sum_congr rfl fun n _ => ?_)
    exact congrArg₂ (· * ·) (logSigmoidT_apply Z (ix2 b n)) rfl

/-- The last stage: the second product of the exponentials plus the second bias, at `(b, k)`, for any array `L`. -/
theorem last_apply (L : FVec Ideal S8192x2048 .f32) (a4 : FVec Ideal S8x2048 .f32) (a5 : FVec Ideal S8 .f32)
    (b : Fin 8192) (k : Fin 8) :
    addf
      (Host.dotGeneral (F := Ideal) dot_S8192x2048_S2048x8_S8192x8_1_0_0_1_n_n none (Host.exp L)
        (transpose S2048x8 [1, 0] a4 transposes_S8x2048_S2048x8_1_0))
      (broadcastInDim S8192x8 ![0, 1] bcast_S1x8_S8192x8_0_1 (broadcastInDim S1x8 ![1] bcast_S8_S1x8_1 a5))
      (ix2 b k)
      = (∑ mm : Fin 2048, Ideal.exp (L (ix2 b mm)) * a4 (ix2 k mm)) + a5 (ix1 k) := by
  refine (addf_apply _ _ _).trans (congrArg₂ (· + ·) ?_ (rowBcast_apply _ _ a5 b k))
  refine (congrFun (RowsTimes.hostDot_eq (M := 8192) (K := 2048) (N := 8)
    dot_S8192x2048_S2048x8_S8192x8_1_0_0_1_n_n rfl rfl rfl rfl rfl rfl rfl rfl none (Host.exp L) _) (ix2 b k)).trans ?_
  refine (RowsTimes.rowsTimes_apply _ _ b k).trans (Finset.sum_congr rfl fun mm _ => ?_)
  exact congrArg₂ (· * ·) rfl (transpose_ix2_apply a4 _ mm k)

/-! ## The whole reference -/

/-- THE REFERENCE'S RESULT IS THE SPECIFICATION. -/
theorem refTerm_eq_G (a0 : FVec Ideal S8192x2048 .f32) (a1 : FVec Ideal S2047x2048 .f32) (a2 : FVec Ideal S2047 .f32) (a3 : IVec S2048x2047 32) (a4 : FVec Ideal S8x2048 .f32) (a5 : FVec Ideal S8 .f32) :
    Cert.ReferenceIdeal.RefTerm.refTerm (F := Ideal) a0 a1 a2 a3 a4 a5 = Cert.LogTree.G a0 a1 a2 a3 a4 a5 := by
  funext i
  obtain ⟨b, k, rfl⟩ : ∃ (b : Fin 8192) (k : Fin 8), i = ix2 b k := ⟨i 0, i 1, eq_ix2 i⟩
  refine Eq.trans ?_ (Cert.LogTree.G_apply a0 a1 a2 a3 a4 a5 b k).symm
  unfold Cert.LogTree.out
  refine (last_apply _ a4 a5 b k).trans ?_
  refine congrArg (· + a5 (ix1 k)) (Finset.sum_congr rfl fun mm _ => ?_)
  refine congrArg (fun t => Ideal.exp t * a4 (ix2 k mm)) ?_
  unfold Cert.LogTree.logProd
  refine (mid_apply _ a3 b mm).trans ?_
  exact congrArg₂ (· + ·)
    (Finset.sum_congr rfl fun n _ =>
      congrArg (fun t => Cert.LogTree.logSigmoid (-t) * Cert.LogTree.gate 1#32 (a3 (ix2 mm n))) (first_apply a0 a1 a2 b n))
    (Finset.sum_congr rfl fun n _ =>
      congrArg (fun t => Cert.LogTree.logSigmoid t * Cert.LogTree.gate 4294967295#32 (a3 (ix2 mm n))) (first_apply a0 a1 a2 b n))

end Cert.ReferenceIdeal.RefValue

end
-- ==== Proof.Finite.lean ====
/-
  Finite inputs are real-valued.

  The precondition of the claim says that every float input is finite: for each float array x it asks
  |x| < +∞ at every entry (the absolute value is max x (-x), the bound is the f32 word 0x7F800000, which
  denotes +∞), takes the conjunction of all entries, and joins the five answers by a conjunction. Over
  the extended reals an entry whose absolute value is below +∞ is neither +∞ nor -∞, so it is a real
  number. This file reads the conjunction back and concludes that the first three arrays are real-valued.
-/
import proofs.«175677_j39694087750206_2_alg».proof.Pre_finite_inputs
import proofs.«175677_j39694087750206_2_alg».proof.Proof.Gen.Pre_finite_inputs
import proofs.«175677_j39694087750206_2_alg».proof.Proof.LibRealArrays
import Idealize.ShloMosaic.Lib.ReduceAll
import Idealize.ShloMosaic.Lib.ValueIdx
import Idealize.ShloMosaic.Lib.IdealHost
import Idealize.ShloMosaic.PureOps.Ideal

namespace Cert.LogTree.Finite
open Idealize.ShloMosaic Idealize.ShloMosaic.ValueIdx Cert.Pre_finite_inputs Cert.Pre_finite_inputs.Gen

/-- The rank-0 shape has exactly one index. -/
instance : Subsingleton S_.Idx := ⟨fun a b => funext fun d => d.elim0⟩

/-- The f32 word 0x7F800000 denotes +∞. -/
theorem ofBits_inf : Ideal.ofBits .f32 0x7F800000#32 = (⊤ : EReal) := by simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ answers 1 then x is a real number. -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- One array: if the conjunction over all entries of |x| < +∞ answers 1 then x is real-valued. -/
theorem isReal_of_all {s : Shape} {axes : List (Fin s.rank)} (hb : S_.BroadcastsInDim s (![] : Fin 0 → Fin s.rank))
    (hr : s.ReducesTo axes S_) (hu : 0 < S_.numel) (x : FVec Ideal s .f32) (init : IVec S_ 1)
    (e : Host.reduce IntOp.andi
          (cmpf .olt (Host.absf x) (broadcastInDim s ![] hb (constant (F := Ideal) S_ .f32 0x7F800000#32))) init hr hu ix0
          = 1#1) :
    Cert.RealArrays.IsReal x := by
  have hall : ∀ i : s.Idx, ∃ r : ℝ, (x i : EReal) = (r : EReal) := by
    intro i
    have hi := Host.reduce_andi_all _ init hr hu ix0 e i
    rw [cmpf_apply, broadcastInDim_scalar_apply] at hi
    exact real_of_cmp (x i) hi
  exact ⟨fun i => Classical.choose (hall i), fun i => Classical.choose_spec (hall i)⟩

/-- The precondition gives that the first three arrays are real-valued. -/
theorem real_of_pre (a0 : FVec Ideal S8192x2048 .f32) (a1 : FVec Ideal S2047x2048 .f32) (a2 : FVec Ideal S2047 .f32)
    (a3 : IVec S2048x2047 32) (a4 : FVec Ideal S8x2048 .f32) (a5 : FVec Ideal S8 .f32)
    (h : Cert.Pre_finite_inputs.fn (F := Ideal) a0 a1 a2 a3 a4 a5 = fun _ => 1#1) :
    Cert.RealArrays.IsReal a0 ∧ Cert.RealArrays.IsReal a1 ∧ Cert.RealArrays.IsReal a2 := by
  have h0 := congrFun h ix0
  dsimp only [Cert.Pre_finite_inputs.fn, Cert.Pre_finite_inputs.fn_part1] at h0
  change IntOp.andi (IntOp.andi (IntOp.andi (IntOp.andi _ _) _) _) _ = 1#1 at h0
  obtain ⟨h0, -⟩ := IntOp.andi_eq_one.1 h0
  obtain ⟨h0, -⟩ := IntOp.andi_eq_one.1 h0
  obtain ⟨h0, e2⟩ := IntOp.andi_eq_one.1 h0
  obtain ⟨e0, e1⟩ := IntOp.andi_eq_one.1 h0
  exact ⟨isReal_of_all _ _ _ a0 _ e0, isReal_of_all _ _ _ a1 _ e1, isReal_of_all _ _ _ a2 _ e2⟩

end Cert.LogTree.Finite
-- ==== Proof.lean ====
/-
  The certificate's five claims.

  The kernel and the reference compute one function of the six arguments (the specification: a linear layer scaled by ten,
  the log-domain gate of a masked product tree, a second linear layer). The reference computes logσ(z) and logσ(−z) separately
  over 2047 features; the kernel pads to 2048 features with zero weights and zero mask entries, computes logσ(−z) once and
  takes logσ(z) = z + logσ(−z), and fuses the two mask products into one. The two agree wherever z is finite, which the
  precondition (finite inputs) gives. The three frames: the kernel's two are the generated frame runs; the reference's is
  its run with the result dropped.
-/
import proofs.«175677_j39694087750206_2_alg».proof.Defs
import proofs.«175677_j39694087750206_2_alg».proof.Proof.Gen.Kernel
import proofs.«175677_j39694087750206_2_alg».proof.Proof.Gen.Kernel.Frame
import proofs.«175677_j39694087750206_2_alg».proof.Proof.Gen.KernelIdeal
import proofs.«175677_j39694087750206_2_alg».proof.Proof.Gen.KernelIdeal.Frame
import proofs.«175677_j39694087750206_2_alg».proof.Proof.Gen.KernelIdeal.Value
import proofs.«175677_j39694087750206_2_alg».proof.Proof.Gen.ReferenceIdeal
import proofs.«175677_j39694087750206_2_alg».proof.Proof.Gen.Pre_finite_inputs
import proofs.«175677_j39694087750206_2_alg».proof.Proof.KernelValue
import proofs.«175677_j39694087750206_2_alg».proof.Proof.RefRun
import proofs.«175677_j39694087750206_2_alg».proof.Proof.RefValue
import proofs.«175677_j39694087750206_2_alg».proof.Proof.Finite

noncomputable section

namespace Cert.Proof.Claims

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefRun.run m ρ)

/-- No operation of the kernel was rewritten for the reading over the extended reals. -/
theorem preserves : Cert.preserves_Kernel_KernelIdeal := trivial

/-- Both programs end holding the specification of the arguments: the kernel's result array block by block, under
    the finiteness the precondition gives the first layer's inputs; the reference's result operation by operation. -/
theorem algebraic : Cert.algebraic_KernelIdeal_ReferenceIdeal := by
  intro m ρ m' ρ' hpre hagree
  have hreal : ∀ c : Dev Cert.KernelIdeal.nD, Cert.RealArrays.IsReal (Cert.KernelIdeal.KValue.A0 m c)
      ∧ Cert.RealArrays.IsReal (Cert.KernelIdeal.Glue.A1 m c) ∧ Cert.RealArrays.IsReal (Cert.KernelIdeal.Glue.A2 m c) :=
    fun c => Cert.LogTree.Finite.real_of_pre _ _ _ _ _ _ (hpre c)
  refine ⟨fun c => Cert.KernelIdeal.KValue.GK m c, Cert.KernelIdeal.KValue.run m ρ hreal, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refTerm_eq_G, (hagree c).1, (hagree c).2.1, (hagree c).2.2.1, (hagree c).2.2.2.1,
    (hagree c).2.2.2.2.1, (hagree c).2.2.2.2.2]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
